-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64 .f32) (main_arg5 : FVec F S64x64 .f32) (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : FVec F S128x64 .f32) (main_arg2 : FVec F S64 .f32) (main_arg3 : FVec F S64x64 .f32) (main_arg4 : FVec F S64 .f32) (main_arg5 : FVec F S64x64 .f32) (main_arg6 : FVec F S64 .f32) (main_arg7 : IVec S1600000 32) (main_arg8 : IVec S1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_v13 main_v16
-- ==== Kernel.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S50000x2 : Shape := ⟨2, ![50000, 2]⟩
abbrev S50000x64 : Shape := ⟨2, ![50000, 64]⟩
abbrev S5000x128 : Shape := ⟨2, ![5000, 128]⟩
abbrev S5000x2 : Shape := ⟨2, ![5000, 2]⟩
abbrev S5000x64 : Shape := ⟨2, ![5000, 64]⟩
abbrev S5000x1 : Shape := ⟨2, ![5000, 1]⟩
abbrev S1600000x64 : Shape := ⟨2, ![1600000, 64]⟩
abbrev S1x64 : Shape := ⟨2, ![1, 64]⟩

abbrev nBuf : Space → Nat
  | .hbm => 75
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S50000, .f32⟩
  | .hbm, ⟨13, _⟩ => ⟨S1600000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S1600000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x1, .f32⟩
  | .hbm, ⟨31, _⟩ => ⟨S50000x2, .f32⟩
  | .hbm, ⟨32, _⟩ => ⟨S50000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S50000x64, .f32⟩
  | .hbm, ⟨44, _⟩ => ⟨S1600000x1, .i32⟩
  | .hbm, ⟨45, _⟩ => ⟨S50000x64, .f32⟩
  | .hbm, ⟨46, _⟩ => ⟨S50000x64, .f32⟩
  | .hbm, ⟨47, _⟩ => ⟨S_, .i32⟩
  | .hbm, ⟨48, _⟩ => ⟨S1600000, .i32⟩
  | .hbm, ⟨49, _⟩ => ⟨S1600000, .i1⟩
  | .hbm, ⟨50, _⟩ => ⟨S_, .i32⟩
  | .hbm, ⟨51, _⟩ => ⟨S1600000, .i32⟩
  | .hbm, ⟨52, _⟩ => ⟨S1600000, .i32⟩
  | .hbm, ⟨53, _⟩ => ⟨S1600000, .i32⟩
  | .hbm, ⟨54, _⟩ => ⟨S1600000x1, .i32⟩
  | .hbm, ⟨55, _⟩ => ⟨S1600000x64, .f32⟩
  | .hbm, ⟨56, _⟩ => ⟨S_, .f32⟩
  | .hbm, ⟨57, _⟩ => ⟨S50000x64, .f32⟩
  | .hbm, ⟨58, _⟩ => ⟨S1600000x1, .i32⟩
  | .hbm, ⟨59, _⟩ => ⟨S50000x64, .f32⟩
  | .hbm, ⟨60, _⟩ => ⟨S50000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S_, .f32⟩
  | .hbm, ⟨71, _⟩ => ⟨S50000x64, .f32⟩
  | .hbm, ⟨72, _⟩ => ⟨S1600000x1, .i32⟩
  | .hbm, ⟨73, _⟩ => ⟨S50000x64, .f32⟩
  | .hbm, ⟨74, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x2, .f32⟩
  | .local _ .vmem, ⟨3, _⟩ => ⟨S5000x2, .f32⟩
  | .local _ .vmem, ⟨4, _⟩ => ⟨S128x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x2, .f32⟩
  | .local _ .vmem, ⟨10, _⟩ => ⟨S5000x2, .f32⟩
  | .local _ .vmem, ⟨11, _⟩ => ⟨S64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x2, .f32⟩
  | .local _ .vmem, ⟨17, _⟩ => ⟨S5000x2, .f32⟩
  | .local _ .vmem, ⟨18, _⟩ => ⟨S64x64, .f32⟩
  | .local _ .vmem, ⟨19, _⟩ => ⟨S64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x2, .f32⟩
  | .local _ .vmem, ⟨25, _⟩ => ⟨S5000x2, .f32⟩
  | .local _ .vmem, ⟨26, _⟩ => ⟨S64x64, .f32⟩
  | .local _ .vmem, ⟨27, _⟩ => ⟨S64, .f32⟩
  | .local _ .vmem, ⟨28, _⟩ => ⟨S5000x64, .f32⟩
  | .local _ .vmem, ⟨29, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_4 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_c_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_c_10 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_11 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg4_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem4_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x2 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  concatenates_S50000x1_S50000x1_S50000x2_d1 : Shape.Concatenates [S50000x1, S50000x1] S50000x2 1
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  slices_S5000x2_o0_0_S5000x1 : S5000x2.Slices ![0, 0] S5000x1
  inb_S5000x128_S5000x128_0_0 : ∀ a, (![0, 0] : Fin 2 → Nat) a + S5000x128.size a ≤ S5000x128.size a
  h_S5000x128 : 0 < S5000x128.numel
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  slices_S5000x2_o0_1_S5000x1 : S5000x2.Slices ![0, 1] S5000x1
  shapeCasts_S5000x64_S5000x64 : S5000x64.ShapeCasts S5000x64
  broadcasts_S5000x1_S5000x64 : S5000x1.Broadcasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  scatter_S50000_S1600000x1_S1600000_n_0_0_1_wf : ScatterDims.WF S50000 S1600000x1 S1600000 [] [0] [0] 1
  dot_S5000x128_S128x64_S5000x64_1_0_0_1_n_n_wf : DotDims.WF S5000x128 S128x64 S5000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x2.size a ≤ S50000x2.size a
  hwx0_1 : ∀ i : grid0.Coords, EltTy.bits .f32 = 32 ∨ (Rect.block (s := S50000x2) S5000x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S50000x2.size a
  hwx1_1 : ∀ i : grid1.Coords, EltTy.bits .f32 = 32 ∨ (Rect.block (s := S50000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x2.size a ≤ S50000x2.size a
  hwx2_1 : ∀ i : grid2.Coords, EltTy.bits .f32 = 32 ∨ (Rect.block (s := S50000x2) S5000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x2.size a ≤ S50000x2.size a
  hwx3_1 : ∀ i : grid3.Coords, EltTy.bits .f32 = 32 ∨ (Rect.block (s := S50000x2) S5000x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg3) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v46) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v13) S5000x2.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v47) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S50000x64 : Shape := ⟨2, ![50000, 64]⟩
abbrev S1x64 : Shape := ⟨2, ![1, 64]⟩
abbrev S1600000x64 : Shape := ⟨2, ![1600000, 64]⟩

abbrev nBuf : Space → Nat
  | .hbm => 104
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S50000, .f32⟩
  | .hbm, ⟨13, _⟩ => ⟨S1600000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S1600000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x128, .f32⟩
  | .hbm, ⟨31, _⟩ => ⟨S50000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S50000x128, .f32⟩
  | .hbm, ⟨43, _⟩ => ⟨S1600000x1, .i32⟩
  | .hbm, ⟨44, _⟩ => ⟨S50000x128, .f32⟩
  | .hbm, ⟨45, _⟩ => ⟨S50000x1, .f32⟩
  | .hbm, ⟨46, _⟩ => ⟨S50000x128, .f32⟩
  | .hbm, ⟨47, _⟩ => ⟨S50000x128, .f32⟩
  | .hbm, ⟨48, _⟩ => ⟨S50000x64, .f32⟩
  | .hbm, ⟨49, _⟩ => ⟨S1x64, .f32⟩
  | .hbm, ⟨50, _⟩ => ⟨S50000x64, .f32⟩
  | .hbm, ⟨51, _⟩ => ⟨S50000x64, .f32⟩
  | .hbm, ⟨52, _⟩ => ⟨S_, .f32⟩
  | .hbm, ⟨53, _⟩ => ⟨S50000x64, .f32⟩
  | .hbm, ⟨54, _⟩ => ⟨S50000x64, .f32⟩
  | .hbm, ⟨55, _⟩ => ⟨S50000x1, .f32⟩
  | .hbm, ⟨56, _⟩ => ⟨S50000x64, .f32⟩
  | .hbm, ⟨57, _⟩ => ⟨S50000x64, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1600000x64, .f32⟩
  | .hbm, ⟨67, _⟩ => ⟨S_, .f32⟩
  | .hbm, ⟨68, _⟩ => ⟨S50000x64, .f32⟩
  | .hbm, ⟨69, _⟩ => ⟨S1600000x1, .i32⟩
  | .hbm, ⟨70, _⟩ => ⟨S50000x64, .f32⟩
  | .hbm, ⟨71, _⟩ => ⟨S50000x1, .f32⟩
  | .hbm, ⟨72, _⟩ => ⟨S50000x64, .f32⟩
  | .hbm, ⟨73, _⟩ => ⟨S50000x64, .f32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S50000x64, .f32⟩
  | .hbm, ⟨78, _⟩ => ⟨S_, .f32⟩
  | .hbm, ⟨79, _⟩ => ⟨S50000x64, .f32⟩
  | .hbm, ⟨80, _⟩ => ⟨S50000x64, .f32⟩
  | .hbm, ⟨81, _⟩ => ⟨S50000x1, .f32⟩
  | .hbm, ⟨82, _⟩ => ⟨S50000x64, .f32⟩
  | .hbm, ⟨83, _⟩ => ⟨S50000x64, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x64, .f32⟩
  | .hbm, ⟨93, _⟩ => ⟨S_, .f32⟩
  | .hbm, ⟨94, _⟩ => ⟨S50000x64, .f32⟩
  | .hbm, ⟨95, _⟩ => ⟨S1600000x1, .i32⟩
  | .hbm, ⟨96, _⟩ => ⟨S50000x64, .f32⟩
  | .hbm, ⟨97, _⟩ => ⟨S50000x1, .f32⟩
  | .hbm, ⟨98, _⟩ => ⟨S50000x64, .f32⟩
  | .hbm, ⟨99, _⟩ => ⟨S50000x64, .f32⟩
  | .hbm, ⟨100, _⟩ => ⟨S50000x64, .f32⟩
  | .hbm, ⟨101, _⟩ => ⟨S1x64, .f32⟩
  | .hbm, ⟨102, _⟩ => ⟨S50000x64, .f32⟩
  | .hbm, ⟨103, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call2_cst : Ref sig .tc := ⟨.hbm, 52, rfl⟩
abbrev main_call2_v0 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_6 : Ref sig .tc := ⟨.hbm, 58, rfl⟩
abbrev main_v35 : Ref sig .tc := ⟨.hbm, 59, rfl⟩
abbrev main_v36 : Ref sig .tc := ⟨.hbm, 60, rfl⟩
abbrev main_c_7 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_8 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_call3_cst : Ref sig .tc := ⟨.hbm, 78, rfl⟩
abbrev main_call3_v0 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_9 : Ref sig .tc := ⟨.hbm, 84, rfl⟩
abbrev main_v56 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x64_S50000x64_1_0_0_1_n_n_wf : DotDims.WF S50000x128 S128x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S50000x64_S64x64_S50000x64_1_0_0_1_n_n_wf : DotDims.WF S50000x64 S64x64 S50000x64 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel's run, with every buffer outside the pipelines' own staging named after the run.

  @main is four pipelined regions among stretches of host operations. The buffer contents at each boundary
  form a fold from the launch memory: a host stretch applies its operations, a region leaves its arrays at what
  its write-backs make of them and everything else as entered. The last boundary's contents are `W12`; every
  weakly fair execution terminates with each unscoped buffer at `W12`'s value there. In particular the result
  array holds what region 3's write-backs leave of it, and the arguments are as launched.
-/
import proofs.«152768_j80633716015250_2_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The same run with the result array and the arguments read off: the result at the last boundary's contents, each
    argument as launched. -/
theorem run_out : θ_run defs (onTc (τ := τ) (main (F := F))) ⟨m, fun _ => 0, ρ⟩ (fun r => ∀ c : Dev nD,
      r.2.mem ((c.tc : Thread nD τ).loc main_v47) = V12 m ρ c main_v47
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v47 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)
    (run_all m ρ)

end Cert.KernelIdeal.RunOut

end
-- ==== Proof.GcnSpec.lean ====
/-
  The four dense stages of a three-layer graph convolution, as functions of whole arrays, entry by entry.

  A node's two degree normalisations travel together as the two columns of one array: column 0 scales a node's
  features before they are sent along its outgoing edges, column 1 scales what the node has received.
  * `proj`: scale row p of X by column 0 of the norms, then multiply by the weights:
      (p, q) ↦ Σ_k (X(p,k) · Nm(p,0)) · W(k,q).
  * `epi`: scale what was received by column 1, add the bias, clamp at zero, and scale by column 0 for the next send:
      (p, q) ↦ max(A(p,q) · Nm(p,1) + b(q), 0) · Nm(p,0).
  * `conv`: scale what was received by column 1, multiply by the weights, add the bias:
      (p, q) ↦ Σ_k (A(p,k) · Nm(p,1)) · W(k,q) + b(q).
  * `convAct`: `conv`, clamped at zero and scaled by column 0 for the next send.
  The row count is a parameter: the same function describes one block of rows and the whole array.
-/
import Idealize.ShloMosaic.PureOps.Ideal
import Idealize.ShloMosaic.Lib.ValueIdx

noncomputable section

open scoped BigOperators

namespace Cert.Gcn

open Idealize.ShloMosaic Idealize.ShloMosaic.ValueIdx

/-- A matrix of extended reals. -/
abbrev Mat (a b : ℕ) : Type := FVec Ideal ⟨2, ![a, b]⟩ .f32
/-- A vector of extended reals. -/
abbrev Vct (a : ℕ) : Type := FVec Ideal ⟨1, ![a]⟩ .f32
/-- The value of the all-zero word (the floor of the clamp). -/
abbrev zeroW : Ideal .f32 := Ideal.ofBits .f32 0x00000000#32

variable {n K J : ℕ}

def projAt (X : Mat n K) (Nm : Mat n 2) (W : Mat K J) (p : Fin n) (q : Fin J) : Ideal .f32 :=
  ∑ k : Fin K, (X (ix2 p k) * Nm (ix2 p 0)) * W (ix2 k q)

def proj (X : Mat n K) (Nm : Mat n 2) (W : Mat K J) : Mat n J := fun i => projAt X Nm W (i 0) (i 1)

def epiAt (A : Mat n J) (Nm : Mat n 2) (b : Vct J) (p : Fin n) (q : Fin J) : Ideal .f32 :=
  max (A (ix2 p q) * Nm (ix2 p 1) + b (ix1 q)) zeroW * Nm (ix2 p 0)

def epi (A : Mat n J) (Nm : Mat n 2) (b : Vct J) : Mat n J := fun i => epiAt A Nm b (i 0) (i 1)

def convAt (A : Mat n K) (Nm : Mat n 2) (W : Mat K J) (b : Vct J) (p : Fin n) (q : Fin J) : Ideal .f32 :=
  ∑ k : Fin K, (A (ix2 p k) * Nm (ix2 p 1)) * W (ix2 k q) + b (ix1 q)

def conv (A : Mat n K) (Nm : Mat n 2) (W : Mat K J) (b : Vct J) : Mat n J := fun i => convAt A Nm W b (i 0) (i 1)

def convActAt (A : Mat n K) (Nm : Mat n 2) (W : Mat K J) (b : Vct J) (p : Fin n) (q : Fin J) : Ideal .f32 :=
  max (convAt A Nm W b p q) zeroW * Nm (ix2 p 0)

def convAct (A : Mat n K) (Nm : Mat n 2) (W : Mat K J) (b : Vct J) : Mat n J := fun i => convActAt A Nm W b (i 0) (i 1)

end Cert.Gcn

end
-- ==== Proof.LibReal.lean ====
/-
  Real numbers among the extended reals.

  Over the extended reals the sum and the product are total, but the laws that move a factor across a sum hold only
  away from the infinities. `IsReal z` says `z` is a real number; real numbers are closed under the sum, the product,
  finite sums and the logistic function, a real factor moves inside a finite sum of real numbers
  (`mul_sum_of_real`), and a scatter that adds real updates into a real array gives a real array.

  How an input is known to be real: a precondition that compares the absolute value of every element of a 32-bit float
  array with plus infinity (the pattern 0x7F800000) says, element by element, that the element is a real number
  (`elem_real`: one element of that comparison being 1; the all-reduce by "and" of the comparison gives every element's).
-/
import Idealize.ShloMosaic.PureOps.Ideal
import Idealize.ShloMosaic.PureOps.Ideal.Laws

noncomputable section

open scoped BigOperators

namespace Cert.LibReal

open Idealize.ShloMosaic

/-- An extended real that is a real number. -/
def IsReal (z : EReal) : Prop := ∃ r : ℝ, z = (r : EReal)

theorem IsReal.coe (r : ℝ) : IsReal (r : EReal) := ⟨r, rfl⟩

theorem IsReal.zero : IsReal 0 := ⟨0, EReal.coe_zero.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of real numbers is a real number. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The logistic function of a real number is a real number. -/
theorem IsReal.logistic {a : EReal} (ha : IsReal a) : IsReal (Ideal.logistic a) := by
  obtain ⟨r, rfl⟩ := ha; exact ⟨_, Ideal.logistic_coe r⟩

/-- A real factor times a finite sum of real numbers is the sum of the products. -/
theorem mul_sum_of_real {ι : Type*} (s : Finset ι) (g : EReal) (a : ι → EReal) (hg : IsReal g)
    (ha : ∀ i ∈ s, IsReal (a i)) : g * ∑ i ∈ s, a i = ∑ i ∈ s, g * a i := by
  classical
  obtain ⟨r, rfl⟩ := hg
  revert ha
  refine Finset.induction_on s ?_ ?_
  · intro _; simp
  · intro i s hi ih ha
    rw [Finset.sum_insert hi, Finset.sum_insert hi, ← ih (fun j hj => ha j (Finset.mem_insert_of_mem hj))]
    obtain ⟨x, hx⟩ := ha i (Finset.mem_insert_self i s)
    obtain ⟨y, hy⟩ := IsReal.sum s a (fun j hj => ha j (Finset.mem_insert_of_mem hj))
    rw [hx, hy, ← EReal.coe_add, ← EReal.coe_mul, ← EReal.coe_mul, ← EReal.coe_mul, ← EReal.coe_add, mul_add]

/-- Adding real updates into a real array leaves every element real: the element plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact IsReal.add (hx i) (IsReal.sum _ _ fun j _ => hu j)

/-- The rank-zero shape has one index. -/
instance scalarIdx_subsingleton : Subsingleton (⟨0, ![]⟩ : Shape).Idx := ⟨fun a b => funext fun d => d.elim0⟩

/-- An extended real whose absolute value, the larger of it and its negation, is below plus infinity is a real number. -/
theorem isReal_of_abs_lt_top (x : EReal) (h : max x (-x) < ⊤) : IsReal x := by
  induction x using EReal.rec with
  | bot => simp at h
  | coe r => exact ⟨r, rfl⟩
  | top => simp at h

/-- The pattern 0x7F800000 of the 32-bit format is plus infinity. -/
theorem ofBits_inf : Ideal.ofBits .f32 0x7F800000#32 = ⊤ := by simp [Ideal.ofBits, Ideal.ieee]

/-- One element of the comparison of the absolute values against a splat of plus infinity being 1 says the
    element is a real number. -/
theorem elem_real {s : Shape} (hb : (⟨0, ![]⟩ : Shape).BroadcastsInDim s (![] : Fin 0 → Fin s.rank))
    (a : FVec Ideal s .f32) (i : s.Idx)
    (h : cmpf .olt (Host.absf a) (broadcastInDim s ![] hb (constant (⟨0, ![]⟩ : Shape) .f32 0x7F800000#32)) i = 1#1) :
    IsReal (a i) := by
  have h' : Ideal.cmp .olt (max (a i) (-(a i))) (Ideal.ofBits .f32 0x7F800000#32) = 1#1 := h
  rw [ofBits_inf] at h'
  unfold Ideal.cmp at h'
  refine isReal_of_abs_lt_top (a i) ?_
  by_contra hn
  simp [hn] at h'

end Cert.LibReal

end
-- ==== Proof.LibLift.lean ====
/-
  Arrays of real numbers among arrays of extended reals.

  `lift f` is the array of extended reals whose entries are the real numbers `f i`. An array all of whose entries are
  real numbers is the lift of an array of reals (`exists_lift`), the coercion of a finite sum of reals is the sum of the
  coercions (`coe_sum`), and a finite sum of lifted entries is the coercion of the sum of the reals (`sum_lift`). With
  these a chain of sums and products applied to real inputs is computed over the real numbers, where every ring law
  holds, and coerced once at the end.
-/
import proofs.«152768_j80633716015250_2_alg».proof.Proof.LibReal

noncomputable section

open scoped BigOperators

namespace Cert.LibLift

open Cert.LibReal

/-- The array of extended reals with the real entries `f i`. -/
def lift {ι : Type*} (f : ι → ℝ) : ι → EReal := fun i => (f i : EReal)

theorem lift_apply {ι : Type*} (f : ι → ℝ) (i : ι) : lift f i = (f i : EReal) := rfl

/-- The coercion of a finite sum of real numbers is the sum of the coercions. -/
theorem coe_sum {ι : Type*} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A finite sum of entries of a lifted array. -/
theorem sum_lift {ι κ : Type*} (s : Finset κ) (f : ι → ℝ) (g : κ → ι) :
    ∑ k ∈ s, lift f (g k) = ((∑ k ∈ s, f (g k) : ℝ) : EReal) := (coe_sum s fun k => f (g k)).symm

/-- An array whose entries are all real numbers is a lifted array. -/
theorem exists_lift {ι : Type*} (x : ι → EReal) (h : ∀ i, IsReal (x i)) : ∃ f : ι → ℝ, x = lift f :=
  ⟨fun i => (h i).choose, funext fun i => (h i).choose_spec⟩

end Cert.LibLift

end
-- ==== Proof.LibAggMul.lean ====
/-
  A general law: a selected sum over edges commutes with a product by a weight matrix, for real entries.

  A graph layer may multiply each node's features by the weights and then sum, for a node, the products over the
  edges arriving at it (project, then aggregate) — or sum the features over those edges first and multiply the sum
  by the weights (aggregate, then project), with a per-node scale c applied after the aggregation. For one output
  column with weights w(k), per-edge rows x(e, k), the scale c and a selection s of edges:

      (Σ_e [s e] Σ_k x(e,k)·w(k)) · c  =  Σ_k ((Σ_e [s e] x(e,k)) · c) · w(k)      (`agg_mul`).

  Over the extended reals this needs every entry to be a real number (a product with an infinity does not distribute
  over a sum of mixed signs); for reals it is the interchange of two finite sums and distributivity (`agg_mul_real`).
  The sums are over arbitrary finite types; the selection is any decidable predicate (for a segment sum:
  "the destination index of e is n").
-/
import proofs.«152768_j80633716015250_2_alg».proof.Proof.LibReal
import proofs.«152768_j80633716015250_2_alg».proof.Proof.LibLift

noncomputable section

open scoped BigOperators

namespace Cert.Gcn

open Cert.LibReal Cert.LibLift

/-- The law over the reals. -/
theorem agg_mul_real {E K : Type*} [Fintype E] [Fintype K] (s : E → Prop) [DecidablePred s]
    (x : E → K → ℝ) (w : K → ℝ) (c : ℝ) :
    (∑ e, if s e then ∑ k, x e k * w k else 0) * c = ∑ k, ((∑ e, if s e then x e k else 0) * c) * w k := by
  simp only [← Finset.sum_filter]
  rw [Finset.sum_comm, Finset.sum_mul]
  refine Finset.sum_congr rfl fun k _ => ?_
  rw [← Finset.sum_mul]
  ring

/-- The law over the extended reals, for real entries. -/
theorem agg_mul {E K : Type*} [Fintype E] [Fintype K] (s : E → Prop) [DecidablePred s]
    (x : E → K → EReal) (w : K → EReal) (c : EReal)
    (hx : ∀ e k, IsReal (x e k)) (hw : ∀ k, IsReal (w k)) (hc : IsReal c) :
    (∑ e, if s e then ∑ k, x e k * w k else 0) * c = ∑ k, ((∑ e, if s e then x e k else 0) * c) * w k := by
  choose xr hxr using hx
  choose wr hwr using hw
  obtain ⟨cr, rfl⟩ := hc
  have hL : (∑ e, if s e then ∑ k, x e k * w k else 0) * (cr : EReal)
      = (((∑ e, if s e then ∑ k, xr e k * wr k else 0) * cr : ℝ) : EReal) := by
    simp only [hxr, hwr, EReal.coe_mul, coe_sum, apply_ite (fun r : ℝ => (r : EReal)), EReal.coe_zero]
  have hR : (∑ k, ((∑ e, if s e then x e k else 0) * (cr : EReal)) * w k)
      = ((∑ k, ((∑ e, if s e then xr e k else 0) * cr) * wr k : ℝ) : EReal) := by
    simp only [hxr, hwr, EReal.coe_mul, coe_sum, apply_ite (fun r : ℝ => (r : EReal)), EReal.coe_zero]
  rw [hL, hR, agg_mul_real]

end Cert.Gcn

end
-- ==== Proof.LibRealOps.lean ====
/-
  More closure properties of the real numbers among the extended reals.

  A real number is an extended real other than the two infinities. Besides the sum, the product and finite sums, the
  real numbers are closed under the difference, the negation, the larger and the smaller of two, the exponential, the
  quotient by a nonzero real, and the reciprocal square root of a positive real: on real arguments each of these
  operations on the extended reals is the real operation, coerced.
-/
import proofs.«152768_j80633716015250_2_alg».proof.Proof.LibReal

noncomputable section

open scoped BigOperators

namespace Cert.LibRealOps

open Idealize.ShloMosaic Cert.LibReal

/-- 1 is a real number. -/
theorem IsReal.one : IsReal 1 := ⟨1, EReal.coe_one.symm⟩

/-- A real number is not plus infinity. -/
theorem IsReal.ne_top {a : EReal} (ha : IsReal a) : a ≠ ⊤ := by
  obtain ⟨r, rfl⟩ := ha; exact EReal.coe_ne_top r

/-- A real number is not minus infinity. -/
theorem IsReal.ne_bot {a : EReal} (ha : IsReal a) : a ≠ ⊥ := by
  obtain ⟨r, rfl⟩ := ha; exact EReal.coe_ne_bot r

/-- An extended real that is neither infinity is a real number. -/
theorem IsReal.of_ne {a : EReal} (ht : a ≠ ⊤) (hb : a ≠ ⊥) : IsReal a := by
  induction a using EReal.rec with
  | bot => exact absurd rfl hb
  | coe r => exact ⟨r, rfl⟩
  | top => exact absurd rfl ht

/-- The negation of a real number is a real number. -/
theorem IsReal.neg {a : EReal} (ha : IsReal a) : IsReal (-a) := by
  obtain ⟨r, rfl⟩ := ha; exact ⟨-r, (EReal.coe_neg r).symm⟩

/-- The difference of two real numbers is a real number. -/
theorem IsReal.sub {a b : EReal} (ha : IsReal a) (hb : IsReal b) : IsReal (a - b) := by
  obtain ⟨r, rfl⟩ := ha; obtain ⟨s, rfl⟩ := hb; exact ⟨r - s, (EReal.coe_sub r s).symm⟩

/-- The larger of two real numbers is a real number. -/
theorem IsReal.max {a b : EReal} (ha : IsReal a) (hb : IsReal b) : IsReal (max a b) := by
  obtain ⟨r, rfl⟩ := ha; obtain ⟨s, rfl⟩ := hb
  exact ⟨Max.max r s, (EReal.coe_strictMono.monotone.map_max).symm⟩

/-- The smaller of two real numbers is a real number. -/
theorem IsReal.min {a b : EReal} (ha : IsReal a) (hb : IsReal b) : IsReal (min a b) := by
  obtain ⟨r, rfl⟩ := ha; obtain ⟨s, rfl⟩ := hb
  exact ⟨Min.min r s, (EReal.coe_strictMono.monotone.map_min).symm⟩

/-- The exponential of a real number is a real number. -/
theorem IsReal.exp {a : EReal} (ha : IsReal a) : IsReal (Ideal.exp a) := by
  obtain ⟨r, rfl⟩ := ha; exact ⟨Real.exp r, Ideal.exp_coe r⟩

/-- The quotient of a real number by a nonzero real is a real number. -/
theorem IsReal.div_coe {a : EReal} (ha : IsReal a) {N : ℝ} (hN : N ≠ 0) : IsReal (Ideal.div a (N : EReal)) := by
  obtain ⟨r, rfl⟩ := ha
  exact ⟨r * (1 / N), by rw [Ideal.div_coe hN, EReal.coe_mul]⟩

/-- The quotient of a real number by a nonzero real number is a real number. -/
theorem IsReal.div {a b : EReal} (ha : IsReal a) (hb : IsReal b) (hb0 : b ≠ 0) : IsReal (Ideal.div a b) := by
  obtain ⟨s, rfl⟩ := hb
  exact IsReal.div_coe ha (fun h => hb0 (by rw [h, EReal.coe_zero]))

/-- The reciprocal square root of a positive real is a real number. -/
theorem IsReal.rsqrt_coe {r : ℝ} (hr : 0 < r) : IsReal (Ideal.rsqrt (r : EReal)) :=
  ⟨(Real.sqrt r)⁻¹, by rw [Ideal.rsqrt_coe, if_neg (not_lt.mpr hr.le), if_neg hr.ne']⟩

/-- A sum of real numbers over a whole finite index type is a real number. -/
theorem IsReal.sum_univ {ι : Type*} [Fintype ι] (f : ι → EReal) (h : ∀ i, IsReal (f i)) : IsReal (∑ i, f i) :=
  IsReal.sum Finset.univ f (fun i _ => h i)

end Cert.LibRealOps

end
-- ==== Proof.LibPairCols.lean ====
/-
  Two columns side by side, and the inverse square root of a clamped degree.

  Two arrays [N, 1] concatenated along the columns into [N, 2] (jnp.stack([u, v], axis=1) of two vectors made columns)
  read back, at (p, 0) and (p, 1), as the first and the second column at row p (`pairCols_left`, `pairCols_right`),
  for any extent N, host or kernel.

  A degree normalisation rsqrt(max(1, d)) of a real d is a real number (`rsqrt_clip_real`): the clamp makes the
  argument at least one, where the inverse square root is finite. The word of 1.0 is the number one (`one_word`).
-/
import proofs.«152768_j80633716015250_2_alg».proof.Proof.LibRealOps
import Idealize.ShloMosaic.Lib.Pipeline.Value
import Idealize.ShloMosaic.Lib.ValueIdx
import Idealize.ShloMosaic.PureOps.Ideal.Laws

noncomputable section

namespace Cert.Gcn

open Cert.LibReal Cert.LibRealOps Idealize.ShloMosaic Idealize.ShloMosaic.ValueIdx

/-! ## The two norm columns side by side -/

section Cols
variable {α : Type} {N : ℕ}

/-- Column 0 of two columns placed side by side is the first. -/
theorem pairCols_left (c0 c1 : (⟨2, ![N, 1]⟩ : Shape).Idx → α)
    (h : Shape.Concatenates [⟨2, ![N, 1]⟩, ⟨2, ![N, 1]⟩] ⟨2, ![N, 2]⟩ 1) (p : Fin N) :
    concatenate ⟨2, ![N, 2]⟩ 1 [⟨⟨2, ![N, 1]⟩, c0⟩, ⟨⟨2, ![N, 1]⟩, c1⟩] h (ix2 p 0) = c0 (ix2 p 0) :=
  concatenate_pair_apply_left 1 c0 c1 h (ix2 p 0) rfl (ix2 p 0) (fun b => by
    match b with
    | ⟨0, _⟩ => rfl
    | ⟨1, _⟩ => rfl)

/-- Column 1 is the second. -/
theorem pairCols_right (c0 c1 : (⟨2, ![N, 1]⟩ : Shape).Idx → α)
    (h : Shape.Concatenates [⟨2, ![N, 1]⟩, ⟨2, ![N, 1]⟩] ⟨2, ![N, 2]⟩ 1) (p : Fin N) :
    concatenate ⟨2, ![N, 2]⟩ 1 [⟨⟨2, ![N, 1]⟩, c0⟩, ⟨⟨2, ![N, 1]⟩, c1⟩] h (ix2 p 1) = c1 (ix2 p 0) :=
  concatenate_pair_apply_right 1 c0 c1 h (ix2 p 1) rfl rfl (ix2 p 0) (fun b hb => by
    match b with
    | ⟨0, _⟩ => rfl
    | ⟨1, _⟩ => exact absurd rfl hb) rfl

end Cols

/-! ## Degrees and their inverse square roots -/

/-- The pattern of 1.0 is the number one. -/
theorem one_word : Ideal.ofBits .f32 0x3F800000#32 = (1 : EReal) := by
  simp [Ideal.ofBits, Ideal.ieee, -EReal.coe_mul]; norm_num

/-- A real number clamped below at one has a real inverse square root. -/
theorem rsqrt_clip_real (d : EReal) (hd : IsReal d) :
    IsReal (FloatOps.hostUnary (F := Ideal) (φ := .f32) .rsqrt (max (Ideal.ofBits .f32 0x3F800000#32) d)) := by
  obtain ⟨r, rfl⟩ := hd
  rw [Ideal.hostUnary_rsqrt_def, one_word]
  have : max (1 : EReal) (r : EReal) = ((max 1 r : ℝ) : EReal) := by
    rw [EReal.coe_strictMono.monotone.map_max, EReal.coe_one]
  rw [this]
  exact IsReal.rsqrt_coe (lt_of_lt_of_le one_pos (le_max_left 1 r))

end Cert.Gcn

end
-- ==== Proof.LibScatterAdd.lean ====
/-
  A float scatter-add on the host (jax's `.at[idx].add(v)`, `jax.ops.segment_sum`), read at the exact instance by
  coordinates.

  The exact instance gives a scatter-add as: each operand element plus the sum of the update elements whose
  result index is that element, the start index read signed and not clamped, an update that lands outside the
  operand dropped. For the two layouts a segment sum prints in — a vector of updates `[E]` added into a vector
  `[N]`, and rows `[E, C]` added into a matrix `[N, C]`, both at start indices `[E, 1]` along axis 0 — this file
  says when update `e` lands on element `n` (exactly when the signed start index of `e` is `n`), and reads the
  scatter at an index as the operand there plus `∑ e, if start e = n then update e else 0`.

  The last lemma is the counting fact a full sum over segments rests on: when every key lies in `[0, N)`, the
  segment sums over all `N` segments add up to the plain sum of the updates.

  Everything is stated for any dimension-number record with the printed list fields (each hypothesis is closed
  by `rfl` at a printed record) and any extents `N`, `E`, `C`.
-/
import Idealize.ShloMosaic.PureOps.Ideal
import Idealize.ShloMosaic.PureOps.Ideal.Laws
import Idealize.ShloMosaic.Lib.ValueIdx

noncomputable section
open Idealize.ShloMosaic Idealize.ShloMosaic.ValueIdx

namespace Cert.LibScatterAdd

variable {N E C : Nat}

/-! ## A vector operand: updates `[E]` added into `[N]` at `[E, 1]` start indices -/

section Vec

variable (d : ScatterDims ⟨1, ![N]⟩ ⟨2, ![E, 1]⟩ ⟨1, ![E]⟩)
  (huw : d.updateWindowDims = []) (hiw : d.insertedWindowDims = [0]) (hsd : d.scatterDimsToOperandDims = [0])
  (hiv : d.indexVectorDim = 1)
include huw hiw hsd hiv

/-- The window of update `j` starts at the signed value of start index `(j, 0)`. -/
theorem start_vec {w : Nat} (j : (⟨1, ![E]⟩ : Shape).Idx) (idx : IVec ⟨2, ![E, 1]⟩ w) (a : Fin 1) :
    d.start j idx a = (idx (ix2 (j 0) 0)).toInt := by
  obtain ⟨uw, iw, sdto, ivd, wf⟩ := d
  simp only at huw hiw hsd hiv
  subst huw hiw hsd hiv
  have ha : a = 0 := Subsingleton.elim _ _
  subst ha
  unfold ScatterDims.start
  simp only [List.mem_singleton, dite_true]
  refine congrArg (fun k => (idx k).toInt) ?_
  funext b
  match b with
  | ⟨0, _⟩ => rfl
  | ⟨1, _⟩ => rfl

/-- The operand's one axis is an inserted window axis: the window coordinate on it is zero. -/
theorem window_vec (j : (⟨1, ![E]⟩ : Shape).Idx) (a : Fin 1) : d.window j a = 0 := by
  obtain ⟨uw, iw, sdto, ivd, wf⟩ := d
  simp only at huw hiw hsd hiv
  subst huw hiw hsd hiv
  have ha : a = 0 := Subsingleton.elim _ _
  subst ha
  unfold ScatterDims.window
  rw [dif_neg]
  simp [ScatterDims.sKept, Shape.kept]

/-- Update `j` lands on element `i` exactly when its signed start index is `i` (an index outside `[0, N)` lands
    nowhere). -/
theorem resultIdx?_vec {w : Nat} (j : (⟨1, ![E]⟩ : Shape).Idx) (idx : IVec ⟨2, ![E, 1]⟩ w) (i : (⟨1, ![N]⟩ : Shape).Idx) :
    d.resultIdx? j idx = some i ↔ (idx (ix2 (j 0) 0)).toInt = ((i 0).val : Int) := by
  have hs := start_vec d huw hiw hsd hiv j idx
  have hw := window_vec d huw hiw hsd hiv j
  unfold ScatterDims.resultIdx?
  split
  · rename_i h
    rw [Option.some.injEq]
    constructor
    · intro hf
      have h0 := congrArg (fun f => ((f 0 : Fin N) : Nat)) hf
      simp only [hs, hw] at h0 h
      have := (h 0).1
      omega
    · intro hv
      funext a
      have ha : a = 0 := Subsingleton.elim _ _
      subst ha
      apply Fin.ext
      simp only [hs, hw]
      omega
  · rename_i h
    constructor
    · intro hf; exact absurd hf (by simp)
    · intro hv
      exfalso; apply h
      intro a
      have ha : a = 0 := Subsingleton.elim _ _
      subst ha
      rw [hs, hw]
      have hlt : ((i 0).val : Nat) < N := (i 0).isLt
      constructor
      · omega
      · show _ < ((N : Nat) : Int)
        omega

/-- Rank-1 indices are the positions. -/
def idx1Equiv (n : Nat) : (⟨1, ![n]⟩ : Shape).Idx ≃ Fin n where
  toFun j := j 0
  invFun := ix1
  left_inv j := (eq_ix1 j).symm
  right_inv _ := rfl

/-- The scatter-add of a vector of updates, at element `i`: the operand there plus the updates whose signed start
    index is `i`. -/
theorem scatterAdd_vec_apply {w : Nat} {φ : FTy} (x : FVec Ideal ⟨1, ![N]⟩ φ) (idx : IVec ⟨2, ![E, 1]⟩ w)
    (upd : FVec Ideal ⟨1, ![E]⟩ φ) (i : (⟨1, ![N]⟩ : Shape).Idx) :
    Host.scatterAdd (F := Ideal) d x idx upd i
      = x i + ∑ e : Fin E, if (idx (ix2 e 0)).toInt = ((i 0).val : Int) then upd (ix1 e) else 0 := by
  unfold Host.scatterAdd
  rw [Ideal.hostScatterAdd_def]
  unfold Ideal.hostScatterAdd
  congr 1
  rw [Finset.sum_filter]
  refine Fintype.sum_equiv (idx1Equiv E) _ _ (fun j => ?_)
  simp only [resultIdx?_vec d huw hiw hsd hiv j idx i]
  rw [eq_ix1 j]
  rfl

end Vec

/-! ## A matrix operand: rows `[E, C]` added into `[N, C]` at `[E, 1]` start rows -/

section Rows

variable (d : ScatterDims ⟨2, ![N, C]⟩ ⟨2, ![E, 1]⟩ ⟨2, ![E, C]⟩)
  (huw : d.updateWindowDims = [1]) (hiw : d.insertedWindowDims = [0]) (hsd : d.scatterDimsToOperandDims = [0])
  (hiv : d.indexVectorDim = 1)
include huw hiw hsd hiv

/-- On the row axis the window of update `j` starts at the signed value of start index `(j 0, 0)`. -/
theorem start_rows0 {w : Nat} (j : (⟨2, ![E, C]⟩ : Shape).Idx) (idx : IVec ⟨2, ![E, 1]⟩ w) :
    d.start j idx 0 = (idx (ix2 (j 0) 0)).toInt := by
  obtain ⟨uw, iw, sdto, ivd, wf⟩ := d
  simp only at huw hiw hsd hiv
  subst huw hiw hsd hiv
  unfold ScatterDims.start
  simp only [List.mem_singleton, dite_true]
  refine congrArg (fun k => (idx k).toInt) ?_
  funext b
  match b with
  | ⟨0, _⟩ => rfl
  | ⟨1, _⟩ => rfl

/-- On the column axis, which the start indices do not name, the window starts at zero. -/
theorem start_rows1 {w : Nat} (j : (⟨2, ![E, C]⟩ : Shape).Idx) (idx : IVec ⟨2, ![E, 1]⟩ w) :
    d.start j idx 1 = 0 := by
  obtain ⟨uw, iw, sdto, ivd, wf⟩ := d
  simp only at huw hiw hsd hiv
  subst huw hiw hsd hiv
  unfold ScatterDims.start
  rw [dif_neg]
  simp

/-- The row axis is an inserted window axis: the window coordinate on it is zero. -/
theorem window_rows0 (j : (⟨2, ![E, C]⟩ : Shape).Idx) : d.window j 0 = 0 := by
  obtain ⟨uw, iw, sdto, ivd, wf⟩ := d
  simp only at huw hiw hsd hiv
  subst huw hiw hsd hiv
  unfold ScatterDims.window
  rw [dif_neg]
  simp [ScatterDims.sKept, Shape.kept]

/-- The column axis carries the update's window: the window coordinate on it is the update's column. -/
theorem window_rows1 (j : (⟨2, ![E, C]⟩ : Shape).Idx) : d.window j 1 = (j 1).val := by
  obtain ⟨uw, iw, sdto, ivd, wf⟩ := d
  simp only at huw hiw hsd hiv
  subst huw hiw hsd hiv
  unfold ScatterDims.window
  rw [dif_pos (by simp [ScatterDims.sKept, Shape.kept])]
  rfl

/-- Update `(e, q)` lands on element `(n, c)` exactly when the signed start index of row `e` is `n` and `q = c`. -/
theorem resultIdx?_rows {w : Nat} (j : (⟨2, ![E, C]⟩ : Shape).Idx) (idx : IVec ⟨2, ![E, 1]⟩ w)
    (i : (⟨2, ![N, C]⟩ : Shape).Idx) :
    d.resultIdx? j idx = some i ↔ (idx (ix2 (j 0) 0)).toInt = ((i 0).val : Int) ∧ j 1 = i 1 := by
  have hs0 := start_rows0 d huw hiw hsd hiv j idx
  have hs1 := start_rows1 d huw hiw hsd hiv j idx
  have hw0 := window_rows0 d huw hiw hsd hiv j
  have hw1 := window_rows1 d huw hiw hsd hiv j
  have hi0 : ((i 0).val : Nat) < N := (i 0).isLt
  have hj1 : ((j 1).val : Nat) < C := (j 1).isLt
  unfold ScatterDims.resultIdx?
  split
  · rename_i h
    rw [Option.some.injEq]
    constructor
    · intro hf
      have h0 := congrArg (fun f => ((f 0 : Fin N) : Nat)) hf
      have h1 := congrArg (fun f => ((f 1 : Fin C) : Nat)) hf
      simp only [hs0, hs1, hw0, hw1] at h0 h1
      have := (h 0).1
      rw [hs0, hw0] at this
      refine ⟨by omega, Fin.ext ?_⟩
      show ((j 1).val : Nat) = (i 1).val
      omega
    · rintro ⟨hv, h1⟩
      have h1' : ((j 1).val : Nat) = (i 1).val := congrArg Fin.val h1
      funext a
      match a with
      | ⟨0, _⟩ =>
        apply Fin.ext
        show (d.start j idx 0 + ((d.window j 0 : Nat) : Int)).toNat = (i 0).val
        rw [hs0, hw0]; omega
      | ⟨1, _⟩ =>
        apply Fin.ext
        show (d.start j idx 1 + ((d.window j 1 : Nat) : Int)).toNat = (i 1).val
        rw [hs1, hw1]; omega
  · rename_i h
    constructor
    · intro hf; exact absurd hf (by simp)
    · rintro ⟨hv, h1⟩
      exfalso; apply h
      intro a
      match a with
      | ⟨0, _⟩ =>
        show 0 ≤ d.start j idx 0 + ((d.window j 0 : Nat) : Int) ∧ d.start j idx 0 + ((d.window j 0 : Nat) : Int) < ((N : Nat) : Int)
        rw [hs0, hw0]; omega
      | ⟨1, _⟩ =>
        show 0 ≤ d.start j idx 1 + ((d.window j 1 : Nat) : Int) ∧ d.start j idx 1 + ((d.window j 1 : Nat) : Int) < ((C : Nat) : Int)
        rw [hs1, hw1]; omega

/-- The scatter-add of rows, at element `(n, c)`: the operand there plus column `c` of the update rows whose signed
    start index is `n`. -/
theorem scatterAdd_rows_apply {w : Nat} {φ : FTy} (x : FVec Ideal ⟨2, ![N, C]⟩ φ) (idx : IVec ⟨2, ![E, 1]⟩ w)
    (upd : FVec Ideal ⟨2, ![E, C]⟩ φ) (n : Fin N) (c : Fin C) :
    Host.scatterAdd (F := Ideal) d x idx upd (ix2 n c)
      = x (ix2 n c) + ∑ e : Fin E, if (idx (ix2 e 0)).toInt = (n.val : Int) then upd (ix2 e c) else 0 := by
  unfold Host.scatterAdd
  rw [Ideal.hostScatterAdd_def]
  unfold Ideal.hostScatterAdd
  congr 1
  rw [Finset.sum_filter, sum_idx2]
  refine Finset.sum_congr rfl (fun e _ => ?_)
  have hiff := fun b : Fin C => resultIdx?_rows d huw hiw hsd hiv (ix2 e b) idx (ix2 n c)
  by_cases hA : (idx (ix2 e 0)).toInt = (n.val : Int)
  · rw [if_pos hA, Finset.sum_eq_single c]
    · exact if_pos ((hiff c).2 ⟨hA, rfl⟩)
    · intro b _ hbc
      exact if_neg (fun h => hbc ((hiff b).1 h).2)
    · intro h; exact absurd (Finset.mem_univ c) h
  · rw [if_neg hA]
    exact Finset.sum_eq_zero (fun b _ => if_neg (fun h => hA ((hiff b).1 h).1))

end Rows

/-! ## Summing a segment sum over all segments -/

/-- When every key lies in `[0, N)`, the segment sums over all `N` segments add up to the sum of all the
    updates: each update is counted in exactly one segment. -/
theorem sum_segments {M : Type*} [AddCommMonoid M] (k : Fin E → Int) (u : Fin E → M)
    (hk : ∀ e, 0 ≤ k e ∧ k e < (N : Int)) :
    ∑ n : Fin N, ∑ e : Fin E, (if k e = (n.val : Int) then u e else 0) = ∑ e : Fin E, u e := by
  rw [Finset.sum_comm]
  refine Finset.sum_congr rfl (fun e _ => ?_)
  obtain ⟨h0, h1⟩ := hk e
  have hlt : (k e).toNat < N := by omega
  have hiff : ∀ n : Fin N, (k e = (n.val : Int)) ↔ n = ⟨(k e).toNat, hlt⟩ := fun n =>
    ⟨fun h => Fin.ext (by show n.val = (k e).toNat; omega), fun h => by rw [h]; show k e = (((k e).toNat : Nat) : Int); omega⟩
  simp only [hiff, Finset.sum_ite_eq', Finset.mem_univ, if_true]

end Cert.LibScatterAdd
-- ==== Proof.LibGatherRows.lean ====
/-
  A general lemma: `stablehlo.gather` of WHOLE ROWS of a rank-2 operand, read at an index.

  What `jnp.take(x, idx, axis = 0)` of a table `x : [N, C]` at an integer vector `idx : [R]` lowers to: a gather with
  offset_dims `[1]`, collapsed_slice_dims `[0]`, start_index_map `[0]`, index_vector_dim `1` and slice sizes `[1, C]`
  over the indices as a column `[R, 1]`. Result element `(t, d)` is `x` at row `idx[t, 0]` — read as a signed integer
  and clamped into `[0, N − 1]`, as the gather clamps every start index — and column `d`: on the operand's row axis
  the clamped start index alone (that axis is collapsed: no offset), on its column axis the result's own column
  coordinate alone (that axis is not in the start index map: start `0`).
-/
import Idealize.ShloMosaic.PureOps
import Idealize.ShloMosaic.Lib.ValueIdx

noncomputable section

namespace Cert.Lib.GatherRows

open Idealize.ShloMosaic Idealize.ShloMosaic.ValueIdx

variable {α : Type}

/-- Those dimension numbers for an operand `[N, C]`, start indices `[R, 1]` and result `[R, C]`; their conditions
    `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(t, d)`: the operand at row `r`, the start index `idx[t, 0]` read signed and clamped into
    `[0, N − 1]`, and column `d`. The row is a variable with its defining equation, so that a user substitutes the
    row it has computed without rewriting under an index's bound proof. -/
theorem gather_rows_apply {N C R w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (d : Fin C) (r : Fin N)
    (hr : r.val = min (idx (ix2 t (0 : Fin 1))).toInt.toNat (N - 1)) :
    Host.gather (rowDims N C R wf) x idx (ix2 t d) = x (ix2 r d) := by
  unfold Host.gather
  refine congrArg x (funext fun a => Fin.ext ?_)
  match a with
  | ⟨0, _⟩ =>
    show (rowDims N C R wf).start (ix2 t d) idx 0 + (rowDims N C R wf).batchCoord (ix2 t d) 0
      + (rowDims N C R wf).offCoord (ix2 t d) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 t d) ⟨List.idxOf (0 : Fin 2) (rowDims N C R wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi, hr]
    rfl
  | ⟨1, _⟩ =>
    show (rowDims N C R wf).start (ix2 t d) idx 1 + (rowDims N C R wf).batchCoord (ix2 t d) 1
      + (rowDims N C R wf).offCoord (ix2 t d) 1 = d.val
    rw [GatherDims.batchCoord_eq_zero _ _ _ List.not_mem_nil]
    unfold GatherDims.start
    have h10 : (1 : Fin 2) ∉ ([0] : List (Fin 2)) := by decide
    rw [dif_neg (show (1 : Fin 2) ∉ (rowDims N C R wf).startIndexMap from h10)]
    unfold GatherDims.offCoord
    rw [dif_pos ((GatherDims.mem_sKept _ _).mpr ⟨(show (1 : Fin 2) ∉ (rowDims N C R wf).collapsedSliceDims from h10), List.not_mem_nil⟩)]
    simp only [Nat.add_zero, Nat.zero_add]
    rfl

end Cert.Lib.GatherRows

end
-- ==== Proof.Layer0.lean ====
/-
  Aggregation over edges, read at an index, and the first layer's two orders of work.

  `agg` gathers, for every edge, the row of its source node and adds it into the row of its destination node, starting
  from zeros: entry (p, q) is the sum over the edges e whose destination is p of the source row's entry
  h(row e, q), where the row an edge reads is its source index clamped into the array.

  First layer: one program projects every node's scaled features by the weights and aggregates the 64-wide results;
  the other aggregates the 128-wide scaled features and projects afterwards. For real features, norms and weights the
  two agree (`agg_mul`): aggregation is a finite sum, and a finite sum commutes with the product by the weights.

-/
import proofs.«152768_j80633716015250_2_alg».proof.Proof.GcnSpec
import proofs.«152768_j80633716015250_2_alg».proof.Proof.LibAggMul
import proofs.«152768_j80633716015250_2_alg».proof.Proof.LibPairCols
import proofs.«152768_j80633716015250_2_alg».proof.Proof.LibScatterAdd
import proofs.«152768_j80633716015250_2_alg».proof.Proof.LibGatherRows
import proofs.«152768_j80633716015250_2_alg».proof.Proof.LibRealOps
import Idealize.ShloMosaic.Lib.Pipeline.Value
import Idealize.ShloMosaic.PureOps.Ideal.Laws

noncomputable section

open scoped BigOperators

namespace Cert.Gcn

open Cert.LibReal Cert.LibRealOps Cert.LibScatterAdd Cert.Lib.GatherRows Idealize.ShloMosaic Idealize.ShloMosaic.ValueIdx

/-- Gather each edge's source row, add it into its destination row. -/
def agg {N C E : ℕ} (dS : ScatterDims ⟨2, ![N, C]⟩ ⟨2, ![E, 1]⟩ ⟨2, ![E, C]⟩)
    (dG : GatherDims ⟨2, ![N, C]⟩ ⟨2, ![E, 1]⟩ ⟨2, ![E, C]⟩)
    (z : Mat N C) (src dst : IVec ⟨2, ![E, 1]⟩ 32) (h : Mat N C) : Mat N C :=
  Host.scatterAdd dS z dst (Host.gather dG h src)

/-- The row of a 50000-row array that edge `e` reads: its source index, signed, clamped into the array. -/
def rowOf {E : ℕ} (src : IVec ⟨2, ![E, 1]⟩ 32) (e : Fin E) : Fin 50000 :=
  ⟨min (src (ix2 e (0 : Fin 1))).toInt.toNat 49999, by omega⟩

/-- Aggregation from zeros at (p, q): the sum, over the edges arriving at p, of the source row's entry q. -/
theorem agg_apply {C E : ℕ} (dS : ScatterDims ⟨2, ![50000, C]⟩ ⟨2, ![E, 1]⟩ ⟨2, ![E, C]⟩)
    (huw : dS.updateWindowDims = [1]) (hiw : dS.insertedWindowDims = [0]) (hsd : dS.scatterDimsToOperandDims = [0])
    (hiv : dS.indexVectorDim = 1)
    (wf : GatherDims.WF ⟨2, ![50000, C]⟩ ⟨2, ![E, 1]⟩ ⟨2, ![E, C]⟩ [1] [0] [] [0] [] 1 ![1, C])
    (z : Mat 50000 C) (hz : ∀ i, z i = 0) (src dst : IVec ⟨2, ![E, 1]⟩ 32) (h : Mat 50000 C) (p : Fin 50000) (q : Fin C) :
    agg dS (rowDims 50000 C E wf) z src dst h (ix2 p q)
      = ∑ e : Fin E, if (dst (ix2 e 0)).toInt = (p.val : Int) then h (ix2 (rowOf src e) q) else 0 := by
  unfold agg
  rw [scatterAdd_rows_apply dS huw hiw hsd hiv z dst _ p q, hz, zero_add]
  refine Finset.sum_congr rfl fun e _ => ?_
  rw [gather_rows_apply wf h src e q (rowOf src e) rfl]

/-- THE FIRST LAYER: project, aggregate, then scale and add the bias — or aggregate, scale, then project and add the
    bias. Equal for real features, norms and weights. -/
theorem layer0 {E : ℕ} (dS64 : ScatterDims ⟨2, ![50000, 64]⟩ ⟨2, ![E, 1]⟩ ⟨2, ![E, 64]⟩)
    (huw : dS64.updateWindowDims = [1]) (hiw : dS64.insertedWindowDims = [0]) (hsd : dS64.scatterDimsToOperandDims = [0])
    (hiv : dS64.indexVectorDim = 1)
    (dS128 : ScatterDims ⟨2, ![50000, 128]⟩ ⟨2, ![E, 1]⟩ ⟨2, ![E, 128]⟩)
    (huw' : dS128.updateWindowDims = [1]) (hiw' : dS128.insertedWindowDims = [0]) (hsd' : dS128.scatterDimsToOperandDims = [0])
    (hiv' : dS128.indexVectorDim = 1)
    (wf64 : GatherDims.WF ⟨2, ![50000, 64]⟩ ⟨2, ![E, 1]⟩ ⟨2, ![E, 64]⟩ [1] [0] [] [0] [] 1 ![1, 64])
    (wf128 : GatherDims.WF ⟨2, ![50000, 128]⟩ ⟨2, ![E, 1]⟩ ⟨2, ![E, 128]⟩ [1] [0] [] [0] [] 1 ![1, 128])
    (z64 : Mat 50000 64) (hz64 : ∀ i, z64 i = 0) (z128 : Mat 50000 128) (hz128 : ∀ i, z128 i = 0)
    (src dst : IVec ⟨2, ![E, 1]⟩ 32)
    (X X0 : Mat 50000 128) (Nm : Mat 50000 2) (W : Mat 128 64) (b : Vct 64)
    (hX0 : ∀ p k, X0 (ix2 p k) = X (ix2 p k) * Nm (ix2 p 0))
    (hXr : ∀ i, IsReal (X i)) (hNm : ∀ i, IsReal (Nm i)) (hW : ∀ i, IsReal (W i)) :
    epi (agg dS64 (rowDims 50000 64 E wf64) z64 src dst (proj X Nm W)) Nm b
      = convAct (agg dS128 (rowDims 50000 128 E wf128) z128 src dst X0) Nm W b := by
  funext i
  obtain ⟨p, q, rfl⟩ : ∃ (p : Fin 50000) (q : Fin 64), i = ix2 p q := ⟨i 0, i 1, eq_ix2 i⟩
  show epiAt _ Nm b p q = convActAt _ Nm W b p q
  unfold epiAt convActAt convAt
  refine congrArg (fun z : Ideal .f32 => max (z + b (ix1 q)) zeroW * Nm (ix2 p 0)) ?_
  have hL : agg dS64 (rowDims 50000 64 E wf64) z64 src dst (proj X Nm W) (ix2 p q)
      = ∑ e : Fin E, if (dst (ix2 e 0)).toInt = (p.val : Int)
          then ∑ k : Fin 128, (X (ix2 (rowOf src e) k) * Nm (ix2 (rowOf src e) 0)) * W (ix2 k q) else 0 :=
    agg_apply dS64 huw hiw hsd hiv wf64 z64 hz64 src dst (proj X Nm W) p q
  have hR : ∀ k : Fin 128, agg dS128 (rowDims 50000 128 E wf128) z128 src dst X0 (ix2 p k)
      = ∑ e : Fin E, if (dst (ix2 e 0)).toInt = (p.val : Int)
          then X (ix2 (rowOf src e) k) * Nm (ix2 (rowOf src e) 0) else 0 := fun k => by
    rw [agg_apply dS128 huw' hiw' hsd' hiv' wf128 z128 hz128 src dst X0 p k]
    exact Finset.sum_congr rfl fun e _ => by rw [hX0]
  rw [hL]
  refine Eq.trans ?_ (Finset.sum_congr rfl fun k _ => by rw [hR k]).symm
  exact agg_mul (fun e => (dst (ix2 e 0)).toInt = (p.val : Int))
    (fun e k => X (ix2 (rowOf src e) k) * Nm (ix2 (rowOf src e) 0)) (fun k => W (ix2 k q)) (Nm (ix2 p 1))
    (fun e k => (hXr _).mul (hNm _)) (fun k => hW _) (hNm _)

end Cert.Gcn

end
-- ==== Proof.KernelDefs.lean ====
/-
  The host side of the kernel program as whole-array functions of the two index vectors: the degree
  normalisations, their two-column packing, the gather and scatter start rows, and the aggregation along the edges.
-/
import proofs.«152768_j80633716015250_2_alg».proof.KernelIdeal
import proofs.«152768_j80633716015250_2_alg».proof.Proof.Gen.KernelIdeal
import proofs.«152768_j80633716015250_2_alg».proof.Proof.Layer0

noncomputable section

namespace Cert.KernelIdeal.Stages

open Cert.KernelIdeal Cert.KernelIdeal.Gen Cert.Gcn
open Idealize.ShloMosaic Idealize.ShloMosaic.ValueIdx

/-! ## The host's whole-array functions -/

/-- A node's degree: the number of edges whose index word names it, clamped below at one. -/
def degClip (x : IVec S1600000 32) : FVec Ideal S50000 .f32 :=
  maximumf (broadcastInDim S50000 ![] bcast_S_S50000 (id (constant (F := Ideal) S_ .f32 0x3F800000#32)))
    (Host.scatterAdd scatter_S50000_S1600000x1_S1600000_n_0_0_1
      (broadcastInDim S50000 ![] bcast_S_S50000 (constant (F := Ideal) S_ .f32 0x00000000#32))
      (broadcastInDim S1600000x1 ![0] bcast_S1600000_S1600000x1_0 x)
      (broadcastInDim S1600000 ![] bcast_S_S1600000 (constant (F := Ideal) S_ .f32 0x3F800000#32)))

/-- The degree normalisation: the inverse square root of the clamped degree. -/
def normVec (x : IVec S1600000 32) : FVec Ideal S50000 .f32 := Host.rsqrt (degClip x)

/-- The two normalisations as the two columns of one array: column 0 from the sources, column 1 from the destinations. -/
def norms (x7 x8 : IVec S1600000 32) : FVec Ideal S50000x2 .f32 :=
  concatenate S50000x2 1 [⟨S50000x1, broadcastInDim S50000x1 ![0] bcast_S50000_S50000x1_0 (normVec x7)⟩,
    ⟨S50000x1, broadcastInDim S50000x1 ![0] bcast_S50000_S50000x1_0 (normVec x8)⟩] concatenates_S50000x1_S50000x1_S50000x2_d1

/-- The source indices as gather start rows: a negative index counts from the end. -/
def srcRows (x7 : IVec S1600000 32) : IVec S1600000x1 32 :=
  broadcastInDim S1600000x1 ![0] bcast_S1600000_S1600000x1_0
    (select (cmpi .slt x7 (broadcastInDim S1600000 ![] bcast_S_S1600000 (constantI S_ 32 0#32)))
      (addi x7 (broadcastInDim S1600000 ![] bcast_S_S1600000 (constantI S_ 32 50000#32))) x7)

/-- The destination indices as scatter start rows. -/
def dstRows (x8 : IVec S1600000 32) : IVec S1600000x1 32 :=
  broadcastInDim S1600000x1 ![0] bcast_S1600000_S1600000x1_0 x8

/-- The zero array aggregation starts from. -/
def zeros64 : FVec Ideal S50000x64 .f32 :=
  broadcastInDim S50000x64 ![] bcast_S_S50000x64 (constant (F := Ideal) S_ .f32 0x00000000#32)

/-- Aggregation of a 64-wide array along the edges. -/
def aggK (x7 x8 : IVec S1600000 32) (h : FVec Ideal S50000x64 .f32) : FVec Ideal S50000x64 .f32 :=
  agg scatter_S50000x64_S1600000x1_S1600000x64_1_0_0_1 gather_S50000x64_S1600000x1_S1600000x64_1_0_n_n_0_1_164
    zeros64 (srcRows x7) (dstRows x8) h

end Cert.KernelIdeal.Stages

end
-- ==== Proof.LibHostLine.lean ====
/-
  A straight line of host operations read in stretches, and the transport of contents to a buffer's own type and back.

  What the buffers hold after a line of operations is a fold over the line; the fold over two lines run one after the
  other is the fold over the second from what the first leaves (`after_append`), so a long line can be read stretch by
  stretch (`after_take_drop`), each stretch from a valuation whose relevant buffers are already known by name.
  An operation of a module-local function carries its operands from their buffers' types to the value types and its
  result back; carried there and back again, contents are unchanged (`ofBuf_toBuf`). Rewriting with it removes the
  nested transports a composed term of such operations is full of, which otherwise make comparing two such terms
  exponentially slow in the depth of the nesting.
-/
import Idealize.ShloMosaic.Lib.StableHlo.Run

noncomputable section

namespace Cert.LibHostLine

open Idealize.ShloMosaic Idealize.ShloMosaic.StableHlo

variable {τ : Topo} {sig : RefSig} {Val : EltTy → Type}

/-- Two lines of operations run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line read as its first `n` operations and then the rest. -/
theorem after_take_drop (l : List (HloOp τ sig Val)) (n : Nat) (V : Valuation τ sig Val) :
    after l V = after (l.drop n) (after (l.take n) V) := by
  rw [← after_append, List.take_append_drop]

/-- Contents carried to a buffer's own type and back are the contents. -/
theorem ofBuf_toBuf {T : BufTy} (x : TRef sig T) (v : T.Contents Val) : x.ofBuf (x.toBuf v) = v := by
  obtain ⟨r, h, _, _⟩ := x
  subst h
  rfl

end Cert.LibHostLine

end
-- ==== Proof.KernelStages.lean ====
/-
  The idealized kernel's buffer contents at each region's entry, read back through the fold of boundary contents.

  Between the regions the host computes, from the two index vectors, the degree normalisations packed as two columns
  and, before each of the last three regions, the aggregate of the previous region's result along the edges. A buffer
  no later operation writes keeps its contents; a region leaves its input arrays as entered and does not touch a
  buffer that is none of its arrays. So at every region's entry the arguments are as launched, the norms are the
  host's function of the index vectors, and the aggregated operand is `aggK` of the previous region's result array.
-/
import proofs.«152768_j80633716015250_2_alg».proof.Proof.Gen.KernelIdeal.Frame
import proofs.«152768_j80633716015250_2_alg».proof.Proof.KernelDefs
import proofs.«152768_j80633716015250_2_alg».proof.Proof.LibHostLine
import Idealize.ShloMosaic.Lib.StableHlo.Run

set_option maxRecDepth 16384

noncomputable section

namespace Cert.KernelIdeal.Stages

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

/-- Contents carried to a buffer's own type are the contents, when the types coincide. -/
theorem toBuf_self (r : Ref sig .tc) (h : r.ty = r.ty) (hd : r.space ≠ .host) (hs : r.isScoped = false)
    (v : r.ty.Contents (Elt Ideal)) : (StableHlo.TRef.of (T := r.ty) r h hd hs).toBuf v = v := rfl

/-- And back. -/
theorem ofBuf_self (r : Ref sig .tc) (h : r.ty = r.ty) (hd : r.space ≠ .host) (hs : r.isScoped = false)
    (v : r.ty.Contents (Elt Ideal)) : (StableHlo.TRef.of (T := r.ty) r h hd hs).ofBuf v = v := rfl

variable (m : (ℓ : Loc nD τ sig) → Buf (Elt Ideal) ℓ) (ρ : Dev nD → PrngReg)

/-! ## Region 0's entry: the arguments as launched, and the norms -/

theorem V5_arg0 (c : Dev nD) : V5 m ρ c main_arg0 = m ((c : Thread nD τ).loc main_arg0) := by
  show StableHlo.after hostOps0_4 (StableHlo.after hostOps0_3 (StableHlo.after hostOps0_2 (StableHlo.after hostOps0_1 (StableHlo.after hostOps0 (W0 m ρ c))))) (Proc.devRef .tc main_arg0) = _
  after_results_simp

theorem V5_arg1 (c : Dev nD) : V5 m ρ c main_arg1 = m ((c : Thread nD τ).loc main_arg1) := by
  show StableHlo.after hostOps0_4 (StableHlo.after hostOps0_3 (StableHlo.after hostOps0_2 (StableHlo.after hostOps0_1 (StableHlo.after hostOps0 (W0 m ρ c))))) (Proc.devRef .tc main_arg1) = _
  after_results_simp

theorem W5_arg2 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) (Proc.devRef .tc main_arg2) = _
  after_results_simp

theorem W5_arg3 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  after_results_simp

theorem W5_arg4 (c : Dev nD) : W5 m ρ c (Proc.devRef .tc main_arg4) = m ((c : Thread nD τ).loc main_arg4) := by
  show StableHlo.after hostOps0_4 (StableHlo.after hostOps0_3 (StableHlo.after hostOps0_2 (StableHlo.after hostOps0_1 (StableHlo.after hostOps0 (W0 m ρ c))))) (Proc.devRef .tc main_arg4) = _
  after_results_simp

theorem W5_arg5 (c : Dev nD) : W5 m ρ c (Proc.devRef .tc main_arg5) = m ((c : Thread nD τ).loc main_arg5) := by
  show StableHlo.after hostOps0_4 (StableHlo.after hostOps0_3 (StableHlo.after hostOps0_2 (StableHlo.after hostOps0_1 (StableHlo.after hostOps0 (W0 m ρ c))))) (Proc.devRef .tc main_arg5) = _
  after_results_simp

theorem W5_arg6 (c : Dev nD) : W5 m ρ c (Proc.devRef .tc main_arg6) = m ((c : Thread nD τ).loc main_arg6) := by
  show StableHlo.after hostOps0_4 (StableHlo.after hostOps0_3 (StableHlo.after hostOps0_2 (StableHlo.after hostOps0_1 (StableHlo.after hostOps0 (W0 m ρ c))))) (Proc.devRef .tc main_arg6) = _
  after_results_simp

theorem W5_arg7 (c : Dev nD) : W5 m ρ c (Proc.devRef .tc main_arg7) = m ((c : Thread nD τ).loc main_arg7) := by
  show StableHlo.after hostOps0_4 (StableHlo.after hostOps0_3 (StableHlo.after hostOps0_2 (StableHlo.after hostOps0_1 (StableHlo.after hostOps0 (W0 m ρ c))))) (Proc.devRef .tc main_arg7) = _
  after_results_simp

theorem W5_arg8 (c : Dev nD) : W5 m ρ c (Proc.devRef .tc main_arg8) = m ((c : Thread nD τ).loc main_arg8) := by
  show StableHlo.after hostOps0_4 (StableHlo.after hostOps0_3 (StableHlo.after hostOps0_2 (StableHlo.after hostOps0_1 (StableHlo.after hostOps0 (W0 m ρ c))))) (Proc.devRef .tc main_arg8) = _
  after_results_simp

set_option maxHeartbeats 2000000 in
theorem V5_v13 (c : Dev nD) :
    V5 m ρ c main_v13 = norms (m ((c : Thread nD τ).loc main_arg7)) (m ((c : Thread nD τ).loc main_arg8)) := by
  show StableHlo.after hostOps0_4 (StableHlo.after hostOps0_3 (StableHlo.after hostOps0_2 (StableHlo.after hostOps0_1 (StableHlo.after hostOps0 (W0 m ρ c))))) (Proc.devRef .tc main_v13) = _
  after_results
  repeat rw [Cert.LibHostLine.ofBuf_toBuf]
  try rw [toBuf_self main_v4]
  try rw [toBuf_self main_v8]
  try rw [ofBuf_self main_cst_1]
  try rw [ofBuf_self main_cst_3]
  try rw [ofBuf_self main_v3]
  try rw [ofBuf_self main_v7]
  rfl

/-! ## What each later step leaves alone -/

theorem keep6_main_v13 (c : Dev nD) : W6 m ρ c (Proc.devRef .tc main_v13) = W5 m ρ c (Proc.devRef .tc main_v13) :=
  (W6_arr m ρ c 1).trans (((dat0 (V5 m ρ) c).arrAt_in 1 rfl _).trans (A_eq0 (V5 m ρ) c 1))
theorem keep7_main_v13 (c : Dev nD) : W7 m ρ c (Proc.devRef .tc main_v13) = W6 m ρ c (Proc.devRef .tc main_v13) :=
  StableHlo.after_of_forall_not_mem (b := Proc.devRef .tc main_v13) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_v13 (c : Dev nD) : W8 m ρ c (Proc.devRef .tc main_v13) = W7 m ρ c (Proc.devRef .tc main_v13) :=
  (W8_arr m ρ c 1).trans (((dat1 (V7 m ρ) c).arrAt_in 1 rfl _).trans (A_eq1 (V7 m ρ) c 1))
theorem keep9_main_v13 (c : Dev nD) : W9 m ρ c (Proc.devRef .tc main_v13) = W8 m ρ c (Proc.devRef .tc main_v13) :=
  StableHlo.after_of_forall_not_mem (b := Proc.devRef .tc main_v13) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep10_main_v13 (c : Dev nD) : W10 m ρ c (Proc.devRef .tc main_v13) = W9 m ρ c (Proc.devRef .tc main_v13) :=
  (W10_arr m ρ c 1).trans (((dat2 (V9 m ρ) c).arrAt_in 1 rfl _).trans (A_eq2 (V9 m ρ) c 1))
theorem keep11_main_v13 (c : Dev nD) : W11 m ρ c (Proc.devRef .tc main_v13) = W10 m ρ c (Proc.devRef .tc main_v13) :=
  StableHlo.after_of_forall_not_mem (b := Proc.devRef .tc main_v13) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_arg2 (c : Dev nD) : W6 m ρ c (Proc.devRef .tc main_arg2) = W5 m ρ c (Proc.devRef .tc main_arg2) :=
  W6_of_ne m ρ c main_arg2 (by decide)
theorem keep7_main_arg2 (c : Dev nD) : W7 m ρ c (Proc.devRef .tc main_arg2) = W6 m ρ c (Proc.devRef .tc main_arg2) :=
  StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_arg3 (c : Dev nD) : W6 m ρ c (Proc.devRef .tc main_arg3) = W5 m ρ c (Proc.devRef .tc main_arg3) :=
  W6_of_ne m ρ c main_arg3 (by decide)
theorem keep7_main_arg3 (c : Dev nD) : W7 m ρ c (Proc.devRef .tc main_arg3) = W6 m ρ c (Proc.devRef .tc main_arg3) :=
  StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_arg3 (c : Dev nD) : W8 m ρ c (Proc.devRef .tc main_arg3) = W7 m ρ c (Proc.devRef .tc main_arg3) :=
  W8_of_ne m ρ c main_arg3 (by decide)
theorem keep9_main_arg3 (c : Dev nD) : W9 m ρ c (Proc.devRef .tc main_arg3) = W8 m ρ c (Proc.devRef .tc main_arg3) :=
  StableHlo.after_of_forall_not_mem (b := Proc.devRef .tc main_arg3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_arg4 (c : Dev nD) : W6 m ρ c (Proc.devRef .tc main_arg4) = W5 m ρ c (Proc.devRef .tc main_arg4) :=
  W6_of_ne m ρ c main_arg4 (by decide)
theorem keep7_main_arg4 (c : Dev nD) : W7 m ρ c (Proc.devRef .tc main_arg4) = W6 m ρ c (Proc.devRef .tc main_arg4) :=
  StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_arg4 (c : Dev nD) : W8 m ρ c (Proc.devRef .tc main_arg4) = W7 m ρ c (Proc.devRef .tc main_arg4) :=
  W8_of_ne m ρ c main_arg4 (by decide)
theorem keep9_main_arg4 (c : Dev nD) : W9 m ρ c (Proc.devRef .tc main_arg4) = W8 m ρ c (Proc.devRef .tc main_arg4) :=
  StableHlo.after_of_forall_not_mem (b := Proc.devRef .tc main_arg4) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_arg5 (c : Dev nD) : W6 m ρ c (Proc.devRef .tc main_arg5) = W5 m ρ c (Proc.devRef .tc main_arg5) :=
  W6_of_ne m ρ c main_arg5 (by decide)
theorem keep7_main_arg5 (c : Dev nD) : W7 m ρ c (Proc.devRef .tc main_arg5) = W6 m ρ c (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_arg5 (c : Dev nD) : W8 m ρ c (Proc.devRef .tc main_arg5) = W7 m ρ c (Proc.devRef .tc main_arg5) :=
  W8_of_ne m ρ c main_arg5 (by decide)
theorem keep9_main_arg5 (c : Dev nD) : W9 m ρ c (Proc.devRef .tc main_arg5) = W8 m ρ c (Proc.devRef .tc main_arg5) :=
  StableHlo.after_of_forall_not_mem (b := Proc.devRef .tc main_arg5) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep10_main_arg5 (c : Dev nD) : W10 m ρ c (Proc.devRef .tc main_arg5) = W9 m ρ c (Proc.devRef .tc main_arg5) :=
  W10_of_ne m ρ c main_arg5 (by decide)
theorem keep11_main_arg5 (c : Dev nD) : W11 m ρ c (Proc.devRef .tc main_arg5) = W10 m ρ c (Proc.devRef .tc main_arg5) :=
  StableHlo.after_of_forall_not_mem (b := Proc.devRef .tc main_arg5) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_arg6 (c : Dev nD) : W6 m ρ c (Proc.devRef .tc main_arg6) = W5 m ρ c (Proc.devRef .tc main_arg6) :=
  W6_of_ne m ρ c main_arg6 (by decide)
theorem keep7_main_arg6 (c : Dev nD) : W7 m ρ c (Proc.devRef .tc main_arg6) = W6 m ρ c (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_arg6 (c : Dev nD) : W8 m ρ c (Proc.devRef .tc main_arg6) = W7 m ρ c (Proc.devRef .tc main_arg6) :=
  W8_of_ne m ρ c main_arg6 (by decide)
theorem keep9_main_arg6 (c : Dev nD) : W9 m ρ c (Proc.devRef .tc main_arg6) = W8 m ρ c (Proc.devRef .tc main_arg6) :=
  StableHlo.after_of_forall_not_mem (b := Proc.devRef .tc main_arg6) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep10_main_arg6 (c : Dev nD) : W10 m ρ c (Proc.devRef .tc main_arg6) = W9 m ρ c (Proc.devRef .tc main_arg6) :=
  W10_of_ne m ρ c main_arg6 (by decide)
theorem keep11_main_arg6 (c : Dev nD) : W11 m ρ c (Proc.devRef .tc main_arg6) = W10 m ρ c (Proc.devRef .tc main_arg6) :=
  StableHlo.after_of_forall_not_mem (b := Proc.devRef .tc main_arg6) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep6_main_arg7 (c : Dev nD) : W6 m ρ c (Proc.devRef .tc main_arg7) = W5 m ρ c (Proc.devRef .tc main_arg7) :=
  W6_of_ne m ρ c main_arg7 (by decide)
theorem keep7_main_arg7 (c : Dev nD) : W7 m ρ c (Proc.devRef .tc main_arg7) = W6 m ρ c (Proc.devRef .tc main_arg7) :=
  StableHlo.after_of_forall_not_mem (b := Proc.devRef .tc main_arg7) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_arg7 (c : Dev nD) : W8 m ρ c (Proc.devRef .tc main_arg7) = W7 m ρ c (Proc.devRef .tc main_arg7) :=
  W8_of_ne m ρ c main_arg7 (by decide)
theorem keep9_main_arg7 (c : Dev nD) : W9 m ρ c (Proc.devRef .tc main_arg7) = W8 m ρ c (Proc.devRef .tc main_arg7) :=
  StableHlo.after_of_forall_not_mem (b := Proc.devRef .tc main_arg7) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep10_main_arg7 (c : Dev nD) : W10 m ρ c (Proc.devRef .tc main_arg7) = W9 m ρ c (Proc.devRef .tc main_arg7) :=
  W10_of_ne m ρ c main_arg7 (by decide)
theorem keep6_main_arg8 (c : Dev nD) : W6 m ρ c (Proc.devRef .tc main_arg8) = W5 m ρ c (Proc.devRef .tc main_arg8) :=
  W6_of_ne m ρ c main_arg8 (by decide)
theorem keep7_main_arg8 (c : Dev nD) : W7 m ρ c (Proc.devRef .tc main_arg8) = W6 m ρ c (Proc.devRef .tc main_arg8) :=
  StableHlo.after_of_forall_not_mem (b := Proc.devRef .tc main_arg8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep8_main_arg8 (c : Dev nD) : W8 m ρ c (Proc.devRef .tc main_arg8) = W7 m ρ c (Proc.devRef .tc main_arg8) :=
  W8_of_ne m ρ c main_arg8 (by decide)
theorem keep9_main_arg8 (c : Dev nD) : W9 m ρ c (Proc.devRef .tc main_arg8) = W8 m ρ c (Proc.devRef .tc main_arg8) :=
  StableHlo.after_of_forall_not_mem (b := Proc.devRef .tc main_arg8) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep10_main_arg8 (c : Dev nD) : W10 m ρ c (Proc.devRef .tc main_arg8) = W9 m ρ c (Proc.devRef .tc main_arg8) :=
  W10_of_ne m ρ c main_arg8 (by decide)

/-! ## The later regions' entries -/

/-- Before region 1 the host aggregates region 0's result along the edges. -/
theorem V7_main_v24 (c : Dev nD) : V7 m ρ c main_v24
    = aggK (m ((c : Thread nD τ).loc main_arg7)) (m ((c : Thread nD τ).loc main_arg8)) (V6 m ρ c main_v14) := by
  have h : StableHlo.after hostOps1 (W6 m ρ c) (Proc.devRef .tc main_v24)
      = aggK (W6 m ρ c (Proc.devRef .tc main_arg7)) (W6 m ρ c (Proc.devRef .tc main_arg8)) (W6 m ρ c (Proc.devRef .tc main_v14)) := by
    after_results
    rfl
  rw [(keep6_main_arg7 m ρ c), (keep6_main_arg8 m ρ c), W5_arg7 m ρ c, W5_arg8 m ρ c] at h
  exact h

/-- Before region 2 the host aggregates region 1's result along the edges. -/
theorem V9_main_v35 (c : Dev nD) : V9 m ρ c main_v35
    = aggK (m ((c : Thread nD τ).loc main_arg7)) (m ((c : Thread nD τ).loc main_arg8)) (V8 m ρ c main_v25) := by
  have h : StableHlo.after hostOps2 (W8 m ρ c) (Proc.devRef .tc main_v35)
      = aggK (W8 m ρ c (Proc.devRef .tc main_arg7)) (W8 m ρ c (Proc.devRef .tc main_arg8)) (W8 m ρ c (Proc.devRef .tc main_v25)) := by
    after_results
    rfl
  rw [(((keep8_main_arg7 m ρ c).trans (keep7_main_arg7 m ρ c)).trans (keep6_main_arg7 m ρ c)), (((keep8_main_arg8 m ρ c).trans (keep7_main_arg8 m ρ c)).trans (keep6_main_arg8 m ρ c)), W5_arg7 m ρ c, W5_arg8 m ρ c] at h
  exact h

/-- Before region 3 the host aggregates region 2's result along the edges. -/
theorem V11_main_v46 (c : Dev nD) : V11 m ρ c main_v46
    = aggK (m ((c : Thread nD τ).loc main_arg7)) (m ((c : Thread nD τ).loc main_arg8)) (V10 m ρ c main_v36) := by
  have h : StableHlo.after hostOps3 (W10 m ρ c) (Proc.devRef .tc main_v46)
      = aggK (W10 m ρ c (Proc.devRef .tc main_arg7)) (W10 m ρ c (Proc.devRef .tc main_arg8)) (W10 m ρ c (Proc.devRef .tc main_v36)) := by
    after_results
    rfl
  rw [(((((keep10_main_arg7 m ρ c).trans (keep9_main_arg7 m ρ c)).trans (keep8_main_arg7 m ρ c)).trans (keep7_main_arg7 m ρ c)).trans (keep6_main_arg7 m ρ c)), (((((keep10_main_arg8 m ρ c).trans (keep9_main_arg8 m ρ c)).trans (keep8_main_arg8 m ρ c)).trans (keep7_main_arg8 m ρ c)).trans (keep6_main_arg8 m ρ c)), W5_arg7 m ρ c, W5_arg8 m ρ c] at h
  exact h

theorem V7_v13 (c : Dev nD) : V7 m ρ c main_v13 = V5 m ρ c main_v13 := ((keep7_main_v13 m ρ c).trans (keep6_main_v13 m ρ c))
theorem V9_v13 (c : Dev nD) : V9 m ρ c main_v13 = V5 m ρ c main_v13 := ((((keep9_main_v13 m ρ c).trans (keep8_main_v13 m ρ c)).trans (keep7_main_v13 m ρ c)).trans (keep6_main_v13 m ρ c))
theorem V11_v13 (c : Dev nD) : V11 m ρ c main_v13 = V5 m ρ c main_v13 := ((((((keep11_main_v13 m ρ c).trans (keep10_main_v13 m ρ c)).trans (keep9_main_v13 m ρ c)).trans (keep8_main_v13 m ρ c)).trans (keep7_main_v13 m ρ c)).trans (keep6_main_v13 m ρ c))
theorem V7_arg2 (c : Dev nD) : V7 m ρ c main_arg2 = m ((c : Thread nD τ).loc main_arg2) := ((keep7_main_arg2 m ρ c).trans (keep6_main_arg2 m ρ c)).trans (W5_arg2 m ρ c)
theorem V9_arg3 (c : Dev nD) : V9 m ρ c main_arg3 = m ((c : Thread nD τ).loc main_arg3) := ((((keep9_main_arg3 m ρ c).trans (keep8_main_arg3 m ρ c)).trans (keep7_main_arg3 m ρ c)).trans (keep6_main_arg3 m ρ c)).trans (W5_arg3 m ρ c)
theorem V9_arg4 (c : Dev nD) : V9 m ρ c main_arg4 = m ((c : Thread nD τ).loc main_arg4) := ((((keep9_main_arg4 m ρ c).trans (keep8_main_arg4 m ρ c)).trans (keep7_main_arg4 m ρ c)).trans (keep6_main_arg4 m ρ c)).trans (W5_arg4 m ρ c)
theorem V11_arg5 (c : Dev nD) : V11 m ρ c main_arg5 = m ((c : Thread nD τ).loc main_arg5) := ((((((keep11_main_arg5 m ρ c).trans (keep10_main_arg5 m ρ c)).trans (keep9_main_arg5 m ρ c)).trans (keep8_main_arg5 m ρ c)).trans (keep7_main_arg5 m ρ c)).trans (keep6_main_arg5 m ρ c)).trans (W5_arg5 m ρ c)
theorem V11_arg6 (c : Dev nD) : V11 m ρ c main_arg6 = m ((c : Thread nD τ).loc main_arg6) := ((((((keep11_main_arg6 m ρ c).trans (keep10_main_arg6 m ρ c)).trans (keep9_main_arg6 m ρ c)).trans (keep8_main_arg6 m ρ c)).trans (keep7_main_arg6 m ρ c)).trans (keep6_main_arg6 m ρ c)).trans (W5_arg6 m ρ c)

end Cert.KernelIdeal.Stages

end
-- ==== Proof.LibPairVec.lean ====
/-
  Vectors and matrix columns of a kernel that works on a tile of (row, column) pairs, read by coordinates.

  A pairwise kernel takes column `c` of an [a, n] operand — as an [a, 1] column, or recast as a vector [a] —, and
  spreads a vector over the tile either down the rows ([a] → [a, 1] → [a, b]: entry (p, q) is the vector at p) or along
  the columns ([b] → [1, b] → [a, b]: entry (p, q) is the vector at q). Each lemma reads one such composite at an index
  given by its coordinates.
-/
import Idealize.ShloMosaic.Lib.ValueIdx
import Idealize.ShloMosaic.Lib.ValueLayout
import Idealize.ShloMosaic.Lib.Pipeline.Value

noncomputable section

namespace Cert.LibPairVec

open Idealize.ShloMosaic Idealize.ShloMosaic.ValueIdx

variable {α : Type}

/-- A column [a, 1] broadcast to [a, b] reads, at (p, q), the column at p. -/
theorem broadcastTo_col_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector [a] recast as a column [a, 1] reads, at (i, u), the vector at i. -/
theorem shapeCast_vec_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] recast as a vector [a] reads, at i, the column at (i, 0). -/
theorem shapeCast_col_vec_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `c` of an [a, n] matrix, cut out as [a, 1] and recast as a vector: at i, the matrix at (i, c). -/
theorem column_vec_apply {a n : ℕ} (c : ℕ) (hc : c < n) (X : (⟨2, ![a, n]⟩ : Shape).Idx → α)
    (hs : (⟨2, ![a, n]⟩ : Shape).Slices ![0, c] ⟨2, ![a, 1]⟩) (h : (⟨2, ![a, 1]⟩ : Shape).ShapeCasts ⟨1, ![a]⟩) (i : Fin a) :
    shapeCast ⟨1, ![a]⟩ (extractStridedSlice ⟨2, ![a, 1]⟩ ![0, c] X hs) h (ix1 i) = X (ix2 i ⟨c, hc⟩) :=
  (shapeCast_col_vec_apply _ h i).trans (slice2_axis1_apply c X hs i (0 : Fin 1) ⟨c, hc⟩ rfl)

/-- Column `c` of an [a, n] matrix, cut out as [a, 1] and spread over [a, b]: at (p, q), the matrix at (p, c). -/
theorem column_spread_apply {a n b : ℕ} (c : ℕ) (hc : c < n) (X : (⟨2, ![a, n]⟩ : Shape).Idx → α)
    (hs : (⟨2, ![a, n]⟩ : Shape).Slices ![0, c] ⟨2, ![a, 1]⟩) (hb : (⟨2, ![a, 1]⟩ : Shape).Broadcasts ⟨2, ![a, b]⟩)
    (p : Fin a) (q : Fin b) :
    broadcastTo ⟨2, ![a, b]⟩ (extractStridedSlice ⟨2, ![a, 1]⟩ ![0, c] X hs) hb (ix2 p q) = X (ix2 p ⟨c, hc⟩) :=
  (broadcastTo_col_apply _ hb p q).trans (slice2_axis1_apply c X hs p (0 : Fin 1) ⟨c, hc⟩ rfl)

/-- A vector [a] spread down the rows of [a, b]: at (p, q), the vector at p. -/
theorem vec_down_apply {a b : ℕ} (v : (⟨1, ![a]⟩ : Shape).Idx → α) (h : (⟨1, ![a]⟩ : Shape).ShapeCasts ⟨2, ![a, 1]⟩)
    (hb : (⟨2, ![a, 1]⟩ : Shape).Broadcasts ⟨2, ![a, b]⟩) (p : Fin a) (q : Fin b) :
    broadcastTo ⟨2, ![a, b]⟩ (shapeCast ⟨2, ![a, 1]⟩ v h) hb (ix2 p q) = v (ix1 p) :=
  (broadcastTo_col_apply _ hb p q).trans (shapeCast_vec_col_apply v h p 0)

/-- A vector [b] spread along the columns of [a, b]: at (p, q), the vector at q. -/
theorem vec_along_apply {a b : ℕ} (v : (⟨1, ![b]⟩ : Shape).Idx → α) (h : (⟨1, ![b]⟩ : Shape).ShapeCasts ⟨2, ![1, b]⟩)
    (hb : (⟨2, ![1, b]⟩ : Shape).Broadcasts ⟨2, ![a, b]⟩) (p : Fin a) (q : Fin b) :
    broadcastTo ⟨2, ![a, b]⟩ (shapeCast ⟨2, ![1, b]⟩ v h) hb (ix2 p q) = v (ix1 q) :=
  (broadcastTo_1b_ab_apply _ hb p q).trans (shapeCast_a_1a_apply v h 0 q)

/-- Column `c` of a [b, n] matrix, cut out, recast as a vector [b] and spread along the columns of [a, b]: at (p, q),
    the matrix at (q, c). -/
theorem column_along_apply {a b n : ℕ} (c : ℕ) (hc : c < n) (X : (⟨2, ![b, n]⟩ : Shape).Idx → α)
    (hs : (⟨2, ![b, n]⟩ : Shape).Slices ![0, c] ⟨2, ![b, 1]⟩) (h : (⟨2, ![b, 1]⟩ : Shape).ShapeCasts ⟨1, ![b]⟩)
    (h' : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (shapeCast ⟨1, ![b]⟩ (extractStridedSlice ⟨2, ![b, 1]⟩ ![0, c] X hs) h) h') hb
      (ix2 p q) = X (ix2 q ⟨c, hc⟩) :=
  (vec_along_apply _ h' hb p q).trans (column_vec_apply c hc X hs h q)

end Cert.LibPairVec

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibPairTile.lean ====
/-
  Layout operations of a kernel that works on a TILE OF PAIRS, read at an index by coordinates.

  A pairwise kernel holds, per grid point, a [a, b] tile indexed by (query row p, key row q), lifts it to
  [a, b, c] by a trailing feature axis, folds the pair axes into one row axis of a·b rows for a matrix product,
  and unfolds and permutes the product [a·b, h] into [h, a, b]. Each lemma reads one such operation at an index
  given by its coordinates and names the operand's index by coordinates; the folded row of the pair (p, q) is
  p·b + q.
-/
import Idealize.ShloMosaic.Lib.Pipeline.Value
import Idealize.ShloMosaic.Lib.ValueIdx
import Idealize.ShloMosaic.Lib.ValueLayout
import Idealize.ShloMosaic.PureOps.Ideal.Laws

noncomputable section

namespace Cert.PairTile

open Idealize.ShloMosaic Idealize.ShloMosaic.ValueIdx

variable {α : Type}

/-- A column [a, 1] broadcast to [a, b] reads, at (p, q), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A tile [a, b] cast to [a, b, 1] reads, at (p, q, u), the tile at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A tile [a, b, 1] broadcast along a trailing axis to [a, b, c] reads, at (p, q, k), the tile at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector [c] cast to [1, 1, c] reads, at (u, v, k), the vector at k. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    simp only [hu, hv, Nat.zero_mul, Nat.zero_add, Nat.mul_one, Nat.add_zero])

/-- A row [1, 1, c] broadcast to [a, b, c] reads, at (p, q, k), the row at k. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- The pair axes folded: [a, b, c] cast to [n, c] (n = a·b) reads, at (r, k) with r = p·b + q, the tile at (p, q, k). -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_three, Shape.rowMajor_val_two]
    show (p.val * b + q.val) * c + k.val = r.val * c + k.val
    rw [hr])

/-- The pair axes unfolded: [n, c] cast to [a, b, c] (n = a·b) reads, at (p, q, k), the matrix at (r, k), r = p·b + q. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_three, Shape.rowMajor_val_two]
    show r.val * c + k.val = (p.val * b + q.val) * c + k.val
    rw [hr])

/-- The trailing axis brought to the front: [a, b, c] permuted by [2, 0, 1] reads, at (k, p, q), the tile at (p, q, k). -/
theorem transpose_201_apply {a b c : ℕ} (x : (⟨3, ![a, b, c]⟩ : Shape).Idx → α)
    (h : (⟨3, ![a, b, c]⟩ : Shape).Transposes [2, 0, 1] ⟨3, ![c, a, b]⟩) (k : Fin c) (p : Fin a) (q : Fin b) :
    transpose ⟨3, ![c, a, b]⟩ [2, 0, 1] x h (ix3 k p q) = x (ix3 p q k) :=
  transpose_apply _ x h _ _ fun d => match d with | ⟨0, _⟩ => rfl | ⟨1, _⟩ => rfl | ⟨2, _⟩ => rfl

/-- Coordinate o of the query rows over the tile: a [1, a, 3] block cast to [a, 3], its column o cut out as [a, 1]
    and broadcast over the key axis, reads at (p, q) the block at (0, p, o). -/
theorem queryCoord_apply {a b n : ℕ} (x : (⟨3, ![1, a, n]⟩ : Shape).Idx → α) (o : ℕ) (ho : o < n)
    (hc : (⟨3, ![1, a, n]⟩ : Shape).ShapeCasts ⟨2, ![a, n]⟩)
    (hs : (⟨2, ![a, n]⟩ : Shape).Slices ![0, o] ⟨2, ![a, 1]⟩)
    (hb : (⟨2, ![a, 1]⟩ : Shape).Broadcasts ⟨2, ![a, b]⟩) (p : Fin a) (q : Fin b) :
    broadcastTo ⟨2, ![a, b]⟩ (extractStridedSlice ⟨2, ![a, 1]⟩ ![0, o] (shapeCast ⟨2, ![a, n]⟩ x hc) hs) hb (ix2 p q)
      = x (ix3 (0 : Fin 1) p ⟨o, ho⟩) :=
  (broadcastTo_a1_ab_apply _ hb p q).trans
    ((slice2_axis1_apply o _ hs p (0 : Fin 1) ⟨o, ho⟩ (Nat.add_zero o).symm).trans (shapeCast_1ab_ab_apply x hc p ⟨o, ho⟩))

/-- Coordinate o of the key rows over the tile: a [1, b, 3] block cast to [b, 3] and transposed to [3, b], its row o
    cut out as [1, b] and broadcast over the query axis, reads at (p, q) the block at (0, q, o). -/
theorem keyCoord_apply {a b n : ℕ} (x : (⟨3, ![1, b, n]⟩ : Shape).Idx → α) (o : ℕ) (ho : o < n)
    (hc : (⟨3, ![1, b, n]⟩ : Shape).ShapeCasts ⟨2, ![b, n]⟩)
    (ht : (⟨2, ![b, n]⟩ : Shape).Transposes [1, 0] ⟨2, ![n, b]⟩)
    (hs : (⟨2, ![n, b]⟩ : Shape).Slices ![o, 0] ⟨2, ![1, b]⟩)
    (hb : (⟨2, ![1, b]⟩ : Shape).Broadcasts ⟨2, ![a, b]⟩) (p : Fin a) (q : Fin b) :
    broadcastTo ⟨2, ![a, b]⟩ (extractStridedSlice ⟨2, ![1, b]⟩ ![o, 0] (transpose ⟨2, ![n, b]⟩ [1, 0] (shapeCast ⟨2, ![b, n]⟩ x hc) ht) hs) hb (ix2 p q)
      = x (ix3 (0 : Fin 1) q ⟨o, ho⟩) :=
  (broadcastTo_1b_ab_apply _ hb p q).trans
    ((slice2_axis0_apply o _ hs (0 : Fin 1) q ⟨o, ho⟩ (Nat.add_zero o).symm).trans
      ((transpose_ix2_apply _ ht ⟨o, ho⟩ q).trans (shapeCast_1ab_ab_apply x hc q ⟨o, ho⟩)))

/-- A tile [a, b] lifted along a trailing feature axis to [a, b, c] reads, at (p, q, k), the tile at (p, q). -/
theorem liftTile_apply {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x hc) hb (ix3 p q k) = x (ix2 p q) :=
  (broadcastTo_ab1_abc_apply _ hb p q k).trans (shapeCast_ab_ab1_apply x hc p q 0)

/-- A feature vector [c] lifted over the pair axes to [a, b, c] reads, at (p, q, k), the vector at k. -/
theorem liftVec_apply {a b c : ℕ} (x : (⟨1, ![c]⟩ : Shape).Idx → α)
    (hc : (⟨1, ![c]⟩ : Shape).ShapeCasts ⟨3, ![1, 1, c]⟩) (hb : (⟨3, ![1, 1, c]⟩ : Shape).Broadcasts ⟨3, ![a, b, c]⟩)
    (p : Fin a) (q : Fin b) (k : Fin c) :
    broadcastTo ⟨3, ![a, b, c]⟩ (shapeCast ⟨3, ![1, 1, c]⟩ x hc) hb (ix3 p q k) = x (ix1 k) :=
  (broadcastTo_11c_abc_apply _ hb p q k).trans (shapeCast_c_11c_apply x hc 0 0 k)

/-- A bias vector [c] over the folded rows: cast to [1, c] and broadcast to [n, c], it reads at (r, k) the vector at k. -/
theorem biasRows_apply {n c : ℕ} (x : (⟨1, ![c]⟩ : Shape).Idx → α)
    (hc : (⟨1, ![c]⟩ : Shape).ShapeCasts ⟨2, ![1, c]⟩) (hb : (⟨2, ![1, c]⟩ : Shape).Broadcasts ⟨2, ![n, c]⟩)
    (r : Fin n) (k : Fin c) :
    broadcastTo ⟨2, ![n, c]⟩ (shapeCast ⟨2, ![1, c]⟩ x hc) hb (ix2 r k) = x (ix1 k) :=
  (broadcastTo_1b_ab_apply _ hb r k).trans (shapeCast_a_1a_apply x hc 0 k)

end Cert.PairTile

end
-- ==== Proof.LibDense.lean ====
/-
  One dense layer on folded rows, over the extended reals: a kernel's matrix product A · W of an [M, K] by a [K, N]
  operand into a zero accumulator, plus a bias vector [N] cast to [1, N] and broadcast over the M rows
  (jnp.dot(x, W) + b[None, :]), read at (r, j): the sum over k of A(r, k) · W(k, j), plus b(j).
-/
import proofs.«152768_j80633716015250_2_alg».proof.Proof.LibMatmulNN
import proofs.«152768_j80633716015250_2_alg».proof.Proof.LibPairTile

noncomputable section

open scoped BigOperators

namespace Cert.LibDense

open Idealize.ShloMosaic Idealize.ShloMosaic.ValueIdx

/-- (A · W into a zero accumulator) + bias over the rows, at (r, j). -/
theorem dense_apply {M K N : ℕ} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (W : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (r : Fin M) (j : Fin N) :
    addf (matmul d prec A W (constant ⟨2, ![M, N]⟩ .f32 0x00000000#32))
        (broadcastTo ⟨2, ![M, N]⟩ (shapeCast ⟨2, ![1, N]⟩ b hc) hb) (ix2 r j)
      = ∑ k : Fin K, A (ix2 r k) * W (ix2 k j) + b (ix1 j) := by
  rw [addf_apply, Cert.LibMatmulNN.matmul_nn_apply d hlc hrc hln hrn hlb hrb prec A W r j,
    Cert.PairTile.biasRows_apply b hc hb r j]

end Cert.LibDense

end
-- ==== Proof.Payloads.lean ====
/-
  Each kernel body's stored value, entry by entry, is the corresponding dense stage of its loaded blocks.

  The bodies cut a column out of the two-column block of norms and spread it along the rows, multiply, contract with
  the weights into a zero accumulator, add the bias spread down the rows, clamp, and rescale. A change of float format
  is the identity on extended reals. Reading each non-pointwise step at an index (a column spread over the rows reads
  the norms at that row; a contraction into zero is the sum of products; a bias over rows reads the vector at the
  column) gives the stage's formula.
-/
import proofs.«152768_j80633716015250_2_alg».proof.Proof.Gen.KernelIdeal.Skeleton
import proofs.«152768_j80633716015250_2_alg».proof.Proof.GcnSpec
import proofs.«152768_j80633716015250_2_alg».proof.Proof.LibPairVec
import proofs.«152768_j80633716015250_2_alg».proof.Proof.LibDense
import Idealize.ShloMosaic.Lib.Pipeline.Value

noncomputable section

open scoped BigOperators

namespace Cert.KernelIdeal.Payloads

open Cert.KernelIdeal Cert.KernelIdeal.Gen Cert.Gcn Idealize.ShloMosaic Idealize.ShloMosaic.ValueIdx

/-- Column `c` of the block of norms spread along the rows, at (p, k): the norms at (p, c). -/
theorem normCol_apply {b : ℕ} (c : ℕ) (hc : c < 2) (v0 : Vec Ideal S5000x2 .f32)
    (hs : S5000x2.Slices ![0, c] S5000x1) (hb : S5000x1.Broadcasts ⟨2, ![5000, b]⟩) (p : Fin 5000) (k : Fin b) :
    broadcastTo ⟨2, ![5000, b]⟩ (extractStridedSlice S5000x1 ![0, c] (shapeCast S5000x2 v0 shapeCasts_S5000x2_S5000x2) hs) hb (ix2 p k)
      = v0 (ix2 p ⟨c, hc⟩) :=
  (Cert.LibPairVec.column_spread_apply c hc _ hs hb p k).trans (congrFun (shapeCast_self v0 _) _)

/-- The projection body: the stored block is `proj` of the loaded blocks. -/
theorem pay0_eq (x0 : Vec Ideal S5000x128 .f32) (x1 : Vec Ideal S5000x2 .f32) (x2 : Vec Ideal S128x64 .f32) :
    k0_pay1 (F := Ideal) x1 x0 x2 = proj x0 x1 x2 := by
  funext i
  obtain ⟨p, q, rfl⟩ : ∃ (p : Fin 5000) (q : Fin 64), i = ix2 p q := ⟨i 0, i 1, eq_ix2 i⟩
  unfold k0_pay1
  refine (Cert.LibMatmulNN.matmul_nn_apply dot_S5000x128_S128x64_S5000x64_1_0_0_1_n_n rfl rfl rfl rfl rfl rfl none _ _ p q).trans ?_
  show _ = projAt x0 x1 x2 p q
  unfold projAt
  refine Finset.sum_congr rfl fun k _ => ?_
  refine congrArg (fun z : Ideal .f32 => z * x2 (ix2 k q)) ?_
  exact congrArg (fun z : Ideal .f32 => x0 (ix2 p k) * z) (normCol_apply 0 (by decide) x1 _ _ p k)

/-- The epilogue body: the stored block is `epi` of the loaded blocks. -/
theorem pay1_eq (x0 : Vec Ideal S5000x64 .f32) (x1 : Vec Ideal S5000x2 .f32) (x2 : Vec Ideal S64 .f32) :
    k1_pay1 (F := Ideal) x1 x0 x2 = epi x0 x1 x2 := by
  funext i
  obtain ⟨p, q, rfl⟩ : ∃ (p : Fin 5000) (q : Fin 64), i = ix2 p q := ⟨i 0, i 1, eq_ix2 i⟩
  unfold k1_pay1
  show max ((shapeCast S5000x64 x0 shapeCasts_S5000x64_S5000x64) (ix2 p q)
        * (broadcastTo S5000x64 (extractStridedSlice S5000x1 ![0, 1] (shapeCast S5000x2 x1 shapeCasts_S5000x2_S5000x2) slices_S5000x2_o0_1_S5000x1) broadcasts_S5000x1_S5000x64) (ix2 p q)
        + (broadcastTo S5000x64 (shapeCast S1x64 x2 shapeCasts_S64_S1x64) broadcasts_S1x64_S5000x64) (ix2 p q)) zeroW
      * (broadcastTo S5000x64 (extractStridedSlice S5000x1 ![0, 0] (shapeCast S5000x2 x1 shapeCasts_S5000x2_S5000x2) slices_S5000x2_o0_0_S5000x1) broadcasts_S5000x1_S5000x64) (ix2 p q)
    = epiAt x0 x1 x2 p q
  rw [normCol_apply 1 (by decide) x1 _ _ p q, normCol_apply 0 (by decide) x1 _ _ p q,
    Cert.PairTile.biasRows_apply x2 _ _ p q, shapeCast_self x0]
  rfl

/-- The graph-convolution body with the clamp and the rescale: the stored block is `convAct` of the loaded blocks. -/
theorem pay2_eq (x0 : Vec Ideal S5000x64 .f32) (x1 : Vec Ideal S5000x2 .f32) (x2 : Vec Ideal S64x64 .f32) (x3 : Vec Ideal S64 .f32) :
    k2_pay1 (F := Ideal) x1 x0 x2 x3 = convAct x0 x1 x2 x3 := by
  funext i
  obtain ⟨p, q, rfl⟩ : ∃ (p : Fin 5000) (q : Fin 64), i = ix2 p q := ⟨i 0, i 1, eq_ix2 i⟩
  unfold k2_pay1
  show max (addf (matmul dot_S5000x64_S64x64_S5000x64_1_0_0_1_n_n none _ _ (constant S5000x64 .f32 0x00000000#32))
        (broadcastTo S5000x64 (shapeCast S1x64 x3 shapeCasts_S64_S1x64) broadcasts_S1x64_S5000x64) (ix2 p q)) zeroW
      * (broadcastTo S5000x64 (extractStridedSlice S5000x1 ![0, 0] (shapeCast S5000x2 x1 shapeCasts_S5000x2_S5000x2) slices_S5000x2_o0_0_S5000x1) broadcasts_S5000x1_S5000x64) (ix2 p q)
    = convActAt x0 x1 x2 x3 p q
  rw [normCol_apply 0 (by decide) x1 _ _ p q,
    Cert.LibDense.dense_apply dot_S5000x64_S64x64_S5000x64_1_0_0_1_n_n rfl rfl rfl rfl rfl rfl none _ _ x3 _ _ p q]
  unfold convActAt convAt
  refine congrArg (fun z : Ideal .f32 => max (z + x3 (ix1 q)) zeroW * x1 (ix2 p 0)) ?_
  refine Finset.sum_congr rfl fun k _ => ?_
  refine congrArg (fun z : Ideal .f32 => z * x2 (ix2 k q)) ?_
  show (shapeCast S5000x64 x0 shapeCasts_S5000x64_S5000x64) (ix2 p k) * _ = _
  rw [normCol_apply 1 (by decide) x1 _ _ p k, shapeCast_self x0]
  rfl

/-- The last graph-convolution body: the stored block is `conv` of the loaded blocks. -/
theorem pay3_eq (x0 : Vec Ideal S5000x64 .f32) (x1 : Vec Ideal S5000x2 .f32) (x2 : Vec Ideal S64x64 .f32) (x3 : Vec Ideal S64 .f32) :
    k3_pay1 (F := Ideal) x1 x0 x2 x3 = conv x0 x1 x2 x3 := by
  funext i
  obtain ⟨p, q, rfl⟩ : ∃ (p : Fin 5000) (q : Fin 64), i = ix2 p q := ⟨i 0, i 1, eq_ix2 i⟩
  unfold k3_pay1
  refine (Cert.LibDense.dense_apply dot_S5000x64_S64x64_S5000x64_1_0_0_1_n_n rfl rfl rfl rfl rfl rfl none _ _ x3 _ _ p q).trans ?_
  show _ = convAt x0 x1 x2 x3 p q
  unfold convAt
  refine congrArg (fun z : Ideal .f32 => z + x3 (ix1 q)) ?_
  refine Finset.sum_congr rfl fun k _ => ?_
  refine congrArg (fun z : Ideal .f32 => z * x2 (ix2 k q)) ?_
  show (shapeCast S5000x64 x0 shapeCasts_S5000x64_S5000x64) (ix2 p k) * _ = _
  rw [normCol_apply 1 (by decide) x1 _ _ p k, shapeCast_self x0]
  rfl

end Cert.KernelIdeal.Payloads

end
-- ==== Proof.Blocks.lean ====
/-
  From blocks to arrays: each of the four pipelined regions leaves in its result array the corresponding dense stage
  of the arrays it reads.

  Every region walks ten grid points. At point `t` it stages rows `t·5000 … t·5000 + 4999` of the row-blocked arrays
  (the features or aggregated rows, and the two-column norms) and the whole of the small arrays (weights, bias), runs
  the body, and writes the result block back to the same rows of the result array. Since the stage's value at row `P`
  depends only on row `P` of the row-blocked arrays, block `t` of the whole-array stage is the stage of the blocks at `t`;
  and the ten blocks tile the 50000 rows, so the result array ends as the whole-array stage.
-/
import proofs.«152768_j80633716015250_2_alg».proof.Proof.Gen.KernelIdeal.Frame
import proofs.«152768_j80633716015250_2_alg».proof.Proof.Payloads
import Idealize.ShloMosaic.Lib.Pipeline.Value

set_option maxRecDepth 16384

noncomputable section

open scoped BigOperators

namespace Cert.KernelIdeal.Blocks

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-! ## Region 0 -/

/-- The printed index maps of region 0, decided over its ten grid points: a row-blocked window is at block `t`, a window
    over a whole small array stays at block zero. -/
theorem idx_facts0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Row `p` of block `t` of window 0 is row `t · 5000 + p` of its array. -/
theorem rd0_0 (c : Dev nD) (t : Fin cfg0.N) (p : Fin 5000) (k : Fin 128) (P : Fin 50000) (hP : P.val = t.val * 5000 + p.val) :
    (iblk0 V c 0 t : Vec Ideal S5000x128 .f32) (ix2 p k) = (V c main_arg0 : Vec Ideal S50000x128 .f32) (ix2 P k) := by
  obtain ⟨e0, e1, e2, e3, e4, e5, e6, e7⟩ := idx_facts0 t
  show V c main_arg0 (((cfg0.win 0).blk t).view.emb (ix2 p k)) = _
  refine congrArg (V c main_arg0) (funext fun a => Fin.ext ?_)
  match a with
  | ⟨0, _⟩ => show win0_0.index t (0 : Fin 2) * 5000 + 1 * p.val = P.val; omega
  | ⟨1, _⟩ => show win0_0.index t (1 : Fin 2) * 128 + 1 * k.val = k.val; omega

/-- Row `p` of block `t` of window 1 is row `t · 5000 + p` of its array. -/
theorem rd0_1 (c : Dev nD) (t : Fin cfg0.N) (p : Fin 5000) (k : Fin 2) (P : Fin 50000) (hP : P.val = t.val * 5000 + p.val) :
    (iblk0 V c 1 t : Vec Ideal S5000x2 .f32) (ix2 p k) = (V c main_v13 : Vec Ideal S50000x2 .f32) (ix2 P k) := by
  obtain ⟨e0, e1, e2, e3, e4, e5, e6, e7⟩ := idx_facts0 t
  show V c main_v13 (((cfg0.win 1).blk t).view.emb (ix2 p k)) = _
  refine congrArg (V c main_v13) (funext fun a => Fin.ext ?_)
  match a with
  | ⟨0, _⟩ => show win0_1.index t (0 : Fin 2) * 5000 + 1 * p.val = P.val; omega
  | ⟨1, _⟩ => show win0_1.index t (1 : Fin 2) * 2 + 1 * k.val = k.val; omega

/-- Window 2 holds its whole array at every point. -/
theorem rd0_2 (c : Dev nD) (t : Fin cfg0.N) (a : Fin 128) (b : Fin 64) :
    (iblk0 V c 2 t : Vec Ideal S128x64 .f32) (ix2 a b) = (V c main_arg1 : Vec Ideal S128x64 .f32) (ix2 a b) := by
  obtain ⟨e0, e1, e2, e3, e4, e5, e6, e7⟩ := idx_facts0 t
  show V c main_arg1 (((cfg0.win 2).blk t).view.emb (ix2 a b)) = _
  refine congrArg (V c main_arg1) (funext fun x => Fin.ext ?_)
  match x with
  | ⟨0, _⟩ => show win0_2.index t (0 : Fin 2) * 128 + 1 * a.val = a.val; omega
  | ⟨1, _⟩ => show win0_2.index t (1 : Fin 2) * 64 + 1 * b.val = b.val; omega

/-- What point `t` of region 0 writes back is block `t` of `proj` of the arrays the region finds. -/
theorem flushed0 (c : Dev nD) (t : Fin cfg0.N) :
    (dat0 V c).flushed 3 t = ((cfg0.win 3).blk t).view.read (Elt Ideal) (proj (n := 50000) (K := 128) (J := 64) (V c main_arg0) (V c main_v13) (V c main_arg1)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x2) hz, View.ld_unit_zero (S := S128x64) hz]
  rw [Payloads.pay0_eq]
  obtain ⟨e0, e1, e2, e3, e4, e5, e6, e7⟩ := idx_facts0 t
  funext j
  show projAt (n := 5000) (K := 128) (J := 64) (iblk0 V c 0 t) (iblk0 V c 1 t) (iblk0 V c 2 t) (j 0) (j 1) = projAt (n := 50000) (K := 128) (J := 64) (V c main_arg0) (V c main_v13) (V c main_arg1) (((cfg0.win 3).blk t).view.emb j 0) (((cfg0.win 3).blk t).view.emb j 1)
  have hq : (((cfg0.win 3).blk t).view.emb j 1) = (j 1) := (Fin.ext (by show win0_3.index t (1 : Fin 2) * 64 + 1 * (j 1).val = (j 1).val; omega))
  unfold projAt
  refine Finset.sum_congr rfl fun k _ => ?_
  rw [rd0_0 V c t (j 0) k (((cfg0.win 3).blk t).view.emb j 0) (by show win0_3.index t (0 : Fin 2) * 5000 + 1 * (j 0).val = t.val * 5000 + (j 0).val; omega), rd0_1 V c t (j 0) 0 (((cfg0.win 3).blk t).view.emb j 0) (by show win0_3.index t (0 : Fin 2) * 5000 + 1 * (j 0).val = t.val * 5000 + (j 0).val; omega), rd0_2 V c t k (j 1), hq]

/-- An index of the result array is in point `t`'s block iff its row is among that block's 5000 rows. -/
theorem mem_blk0 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v14).slice (win0_3.rect t)).set ↔ _
  rw [View.set_slice_whole, Rect.mem_set_unit]
  exact Iff.rfl

/-- The ten blocks of 5000 rows cover the result array: row `i` is in block `i / 5000`. -/
theorem cover0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : grid0.N = 10 := N_0
  have ht : (i 0).val / 5000 < grid0.N := by rw [hN]; omega
  obtain ⟨e0, e1, e2, e3, e4, e5, e6, e7⟩ := idx_facts0 ⟨(i 0).val / 5000, ht⟩
  refine ⟨⟨(i 0).val / 5000, ht⟩, flush0_3 _, ?_⟩
  rw [mem_blk0]
  intro a
  match a with
  | ⟨0, _⟩ =>
    show win0_3.index ⟨(i 0).val / 5000, ht⟩ (0 : Fin 2) * 5000 ≤ (i 0).val ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 64 ≤ (i 1).val ∧ (i 1).val < win0_3.index ⟨(i 0).val / 5000, ht⟩ (1 : Fin 2) * 64 + 64
    rw [e7]; omega

/-- After region 0 its result array is `proj` of the arrays the region found. -/
theorem final0 (c : Dev nD) : (dat0 V c).arrAt 3 cfg0.N = proj (n := 50000) (K := 128) (J := 64) (V c main_arg0) (V c main_v13) (V c main_arg1) :=
  (dat0 V c).arrAt_eq_of_cover 3 _ (fun t _ => flushed0 V c t) (cover0)

/-! ## Region 1 -/

/-- The printed index maps of region 1, decided over its ten grid points: a row-blocked window is at block `t`, a window
    over a whole small array stays at block zero. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 1) = 0
    ∧ win1_3.index t (0 : Fin 2) = t.val
    ∧ win1_3.index t (1 : Fin 2) = 0 :=
  (by decide +kernel : ∀ t : Fin grid1.N, _)

/-- Row `p` of block `t` of window 0 is row `t · 5000 + p` of its array. -/
theorem rd1_0 (c : Dev nD) (t : Fin cfg1.N) (p : Fin 5000) (k : Fin 64) (P : Fin 50000) (hP : P.val = t.val * 5000 + p.val) :
    (iblk1 V c 0 t : Vec Ideal S5000x64 .f32) (ix2 p k) = (V c main_v24 : Vec Ideal S50000x64 .f32) (ix2 P k) := by
  obtain ⟨e0, e1, e2, e3, e4, e5, e6⟩ := idx_facts1 t
  show V c main_v24 (((cfg1.win 0).blk t).view.emb (ix2 p k)) = _
  refine congrArg (V c main_v24) (funext fun a => Fin.ext ?_)
  match a with
  | ⟨0, _⟩ => show win1_0.index t (0 : Fin 2) * 5000 + 1 * p.val = P.val; omega
  | ⟨1, _⟩ => show win1_0.index t (1 : Fin 2) * 64 + 1 * k.val = k.val; omega

/-- Row `p` of block `t` of window 1 is row `t · 5000 + p` of its array. -/
theorem rd1_1 (c : Dev nD) (t : Fin cfg1.N) (p : Fin 5000) (k : Fin 2) (P : Fin 50000) (hP : P.val = t.val * 5000 + p.val) :
    (iblk1 V c 1 t : Vec Ideal S5000x2 .f32) (ix2 p k) = (V c main_v13 : Vec Ideal S50000x2 .f32) (ix2 P k) := by
  obtain ⟨e0, e1, e2, e3, e4, e5, e6⟩ := idx_facts1 t
  show V c main_v13 (((cfg1.win 1).blk t).view.emb (ix2 p k)) = _
  refine congrArg (V c main_v13) (funext fun a => Fin.ext ?_)
  match a with
  | ⟨0, _⟩ => show win1_1.index t (0 : Fin 2) * 5000 + 1 * p.val = P.val; omega
  | ⟨1, _⟩ => show win1_1.index t (1 : Fin 2) * 2 + 1 * k.val = k.val; omega

/-- Window 2 holds its whole vector at every point. -/
theorem rd1_2 (c : Dev nD) (t : Fin cfg1.N) (a : Fin 64) :
    (iblk1 V c 2 t : Vec Ideal S64 .f32) (ix1 a) = (V c main_arg2 : Vec Ideal S64 .f32) (ix1 a) := by
  obtain ⟨e0, e1, e2, e3, e4, e5, e6⟩ := idx_facts1 t
  show V c main_arg2 (((cfg1.win 2).blk t).view.emb (ix1 a)) = _
  refine congrArg (V c main_arg2) (funext fun x => Fin.ext ?_)
  match x with
  | ⟨0, _⟩ => show win1_2.index t (0 : Fin 1) * 64 + 1 * a.val = a.val; omega

/-- What point `t` of region 1 writes back is block `t` of `epi` of the arrays the region finds. -/
theorem flushed1 (c : Dev nD) (t : Fin cfg1.N) :
    (dat1 V c).flushed 3 t = ((cfg1.win 3).blk t).view.read (Elt Ideal) (epi (n := 50000) (J := 64) (V c main_v24) (V c main_v13) (V c main_arg2)) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x2) hz, View.ld_unit_zero (S := S64) hz1]
  rw [Payloads.pay1_eq]
  obtain ⟨e0, e1, e2, e3, e4, e5, e6⟩ := idx_facts1 t
  funext j
  show epiAt (n := 5000) (J := 64) (iblk1 V c 0 t) (iblk1 V c 1 t) (iblk1 V c 2 t) (j 0) (j 1) = epiAt (n := 50000) (J := 64) (V c main_v24) (V c main_v13) (V c main_arg2) (((cfg1.win 3).blk t).view.emb j 0) (((cfg1.win 3).blk t).view.emb j 1)
  have hq : (((cfg1.win 3).blk t).view.emb j 1) = (j 1) := (Fin.ext (by show win1_3.index t (1 : Fin 2) * 64 + 1 * (j 1).val = (j 1).val; omega))
  unfold epiAt
  rw [rd1_0 V c t (j 0) (j 1) (((cfg1.win 3).blk t).view.emb j 0) (by show win1_3.index t (0 : Fin 2) * 5000 + 1 * (j 0).val = t.val * 5000 + (j 0).val; omega), rd1_1 V c t (j 0) 1 (((cfg1.win 3).blk t).view.emb j 0) (by show win1_3.index t (0 : Fin 2) * 5000 + 1 * (j 0).val = t.val * 5000 + (j 0).val; omega), rd1_1 V c t (j 0) 0 (((cfg1.win 3).blk t).view.emb j 0) (by show win1_3.index t (0 : Fin 2) * 5000 + 1 * (j 0).val = t.val * 5000 + (j 0).val; omega), rd1_2 V c t (j 1), hq]

/-- An index of the result array is in point `t`'s block iff its row is among that block's 5000 rows. -/
theorem mem_blk1 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v25).slice (win1_3.rect t)).set ↔ _
  rw [View.set_slice_whole, Rect.mem_set_unit]
  exact Iff.rfl

/-- The ten blocks of 5000 rows cover the result array: row `i` is in block `i / 5000`. -/
theorem cover1 (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : grid1.N = 10 := N_1
  have ht : (i 0).val / 5000 < grid1.N := by rw [hN]; omega
  obtain ⟨e0, e1, e2, e3, e4, e5, e6⟩ := idx_facts1 ⟨(i 0).val / 5000, ht⟩
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val ∧ (i 0).val < win1_3.index ⟨(i 0).val / 5000, ht⟩ (0 : Fin 2) * 5000 + 5000
    rw [e5]; show (i 0).val / 5000 * 5000 ≤ (i 0).val ∧ (i 0).val < (i 0).val / 5000 * 5000 + 5000; omega
  | ⟨1, _⟩ =>
    show win1_3.index ⟨(i 0).val / 5000, ht⟩ (1 : Fin 2) * 64 ≤ (i 1).val ∧ (i 1).val < win1_3.index ⟨(i 0).val / 5000, ht⟩ (1 : Fin 2) * 64 + 64
    rw [e6]; omega

/-- After region 1 its result array is `epi` of the arrays the region found. -/
theorem final1 (c : Dev nD) : (dat1 V c).arrAt 3 cfg1.N = epi (n := 50000) (J := 64) (V c main_v24) (V c main_v13) (V c main_arg2) :=
  (dat1 V c).arrAt_eq_of_cover 3 _ (fun t _ => flushed1 V c t) (cover1)

/-! ## Region 2 -/

/-- The printed index maps of region 2, decided over its ten grid points: a row-blocked window is at block `t`, a window
    over a whole small array stays at block zero. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 1) = 0
    ∧ win2_4.index t (0 : Fin 2) = t.val
    ∧ win2_4.index t (1 : Fin 2) = 0 :=
  (by decide +kernel : ∀ t : Fin grid2.N, _)

/-- Row `p` of block `t` of window 0 is row `t · 5000 + p` of its array. -/
theorem rd2_0 (c : Dev nD) (t : Fin cfg2.N) (p : Fin 5000) (k : Fin 64) (P : Fin 50000) (hP : P.val = t.val * 5000 + p.val) :
    (iblk2 V c 0 t : Vec Ideal S5000x64 .f32) (ix2 p k) = (V c main_v35 : Vec Ideal S50000x64 .f32) (ix2 P k) := by
  obtain ⟨e0, e1, e2, e3, e4, e5, e6, e7, e8⟩ := idx_facts2 t
  show V c main_v35 (((cfg2.win 0).blk t).view.emb (ix2 p k)) = _
  refine congrArg (V c main_v35) (funext fun a => Fin.ext ?_)
  match a with
  | ⟨0, _⟩ => show win2_0.index t (0 : Fin 2) * 5000 + 1 * p.val = P.val; omega
  | ⟨1, _⟩ => show win2_0.index t (1 : Fin 2) * 64 + 1 * k.val = k.val; omega

/-- Row `p` of block `t` of window 1 is row `t · 5000 + p` of its array. -/
theorem rd2_1 (c : Dev nD) (t : Fin cfg2.N) (p : Fin 5000) (k : Fin 2) (P : Fin 50000) (hP : P.val = t.val * 5000 + p.val) :
    (iblk2 V c 1 t : Vec Ideal S5000x2 .f32) (ix2 p k) = (V c main_v13 : Vec Ideal S50000x2 .f32) (ix2 P k) := by
  obtain ⟨e0, e1, e2, e3, e4, e5, e6, e7, e8⟩ := idx_facts2 t
  show V c main_v13 (((cfg2.win 1).blk t).view.emb (ix2 p k)) = _
  refine congrArg (V c main_v13) (funext fun a => Fin.ext ?_)
  match a with
  | ⟨0, _⟩ => show win2_1.index t (0 : Fin 2) * 5000 + 1 * p.val = P.val; omega
  | ⟨1, _⟩ => show win2_1.index t (1 : Fin 2) * 2 + 1 * k.val = k.val; omega

/-- Window 2 holds its whole array at every point. -/
theorem rd2_2 (c : Dev nD) (t : Fin cfg2.N) (a : Fin 64) (b : Fin 64) :
    (iblk2 V c 2 t : Vec Ideal S64x64 .f32) (ix2 a b) = (V c main_arg3 : Vec Ideal S64x64 .f32) (ix2 a b) := by
  obtain ⟨e0, e1, e2, e3, e4, e5, e6, e7, e8⟩ := idx_facts2 t
  show V c main_arg3 (((cfg2.win 2).blk t).view.emb (ix2 a b)) = _
  refine congrArg (V c main_arg3) (funext fun x => Fin.ext ?_)
  match x with
  | ⟨0, _⟩ => show win2_2.index t (0 : Fin 2) * 64 + 1 * a.val = a.val; omega
  | ⟨1, _⟩ => show win2_2.index t (1 : Fin 2) * 64 + 1 * b.val = b.val; omega

/-- Window 3 holds its whole vector at every point. -/
theorem rd2_3 (c : Dev nD) (t : Fin cfg2.N) (a : Fin 64) :
    (iblk2 V c 3 t : Vec Ideal S64 .f32) (ix1 a) = (V c main_arg4 : Vec Ideal S64 .f32) (ix1 a) := by
  obtain ⟨e0, e1, e2, e3, e4, e5, e6, e7, e8⟩ := idx_facts2 t
  show V c main_arg4 (((cfg2.win 3).blk t).view.emb (ix1 a)) = _
  refine congrArg (V c main_arg4) (funext fun x => Fin.ext ?_)
  match x with
  | ⟨0, _⟩ => show win2_3.index t (0 : Fin 1) * 64 + 1 * a.val = a.val; omega

/-- What point `t` of region 2 writes back is block `t` of `convAct` of the arrays the region finds. -/
theorem flushed2 (c : Dev nD) (t : Fin cfg2.N) :
    (dat2 V c).flushed 4 t = ((cfg2.win 4).blk t).view.read (Elt Ideal) (convAct (n := 50000) (K := 64) (J := 64) (V c main_v35) (V c main_v13) (V c main_arg3) (V c main_arg4)) := by
  show (cfg2.win 4).cut (grid2.coords t) ((dat2 V c).after 4 t) = _
  rw [after2_4]
  unfold out2_4
  rw [View.canon_unit_zero hz]
  simp only [View.ld_unit_zero (S := S5000x64) hz, View.ld_unit_zero (S := S5000x2) hz, View.ld_unit_zero (S := S64x64) hz, View.ld_unit_zero (S := S64) hz1]
  rw [Payloads.pay2_eq]
  obtain ⟨e0, e1, e2, e3, e4, e5, e6, e7, e8⟩ := idx_facts2 t
  funext j
  show convActAt (n := 5000) (K := 64) (J := 64) (iblk2 V c 0 t) (iblk2 V c 1 t) (iblk2 V c 2 t) (iblk2 V c 3 t) (j 0) (j 1) = convActAt (n := 50000) (K := 64) (J := 64) (V c main_v35) (V c main_v13) (V c main_arg3) (V c main_arg4) (((cfg2.win 4).blk t).view.emb j 0) (((cfg2.win 4).blk t).view.emb j 1)
  have hq : (((cfg2.win 4).blk t).view.emb j 1) = (j 1) := (Fin.ext (by show win2_4.index t (1 : Fin 2) * 64 + 1 * (j 1).val = (j 1).val; omega))
  unfold convActAt convAt
  rw [rd2_3 V c t (j 1), rd2_1 V c t (j 0) 0 (((cfg2.win 4).blk t).view.emb j 0) (by show win2_4.index t (0 : Fin 2) * 5000 + 1 * (j 0).val = t.val * 5000 + (j 0).val; omega), hq]
  refine congrArg (fun z => max (z + _) zeroW * _) ?_
  refine Finset.sum_congr rfl fun k _ => ?_
  rw [rd2_0 V c t (j 0) k (((cfg2.win 4).blk t).view.emb j 0) (by show win2_4.index t (0 : Fin 2) * 5000 + 1 * (j 0).val = t.val * 5000 + (j 0).val; omega), rd2_1 V c t (j 0) 1 (((cfg2.win 4).blk t).view.emb j 0) (by show win2_4.index t (0 : Fin 2) * 5000 + 1 * (j 0).val = t.val * 5000 + (j 0).val; omega), rd2_2 V c t k (j 1)]

/-- An index of the result array is in point `t`'s block iff its row is among that block's 5000 rows. -/
theorem mem_blk2 (t : Fin cfg2.N) (i : S50000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v36).slice (win2_4.rect t)).set ↔ _
  rw [View.set_slice_whole, Rect.mem_set_unit]
  exact Iff.rfl

/-- The ten blocks of 5000 rows cover the result array: row `i` is in block `i / 5000`. -/
theorem cover2 (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hN : grid2.N = 10 := N_2
  have ht : (i 0).val / 5000 < grid2.N := by rw [hN]; omega
  obtain ⟨e0, e1, e2, e3, e4, e5, e6, e7, e8⟩ := idx_facts2 ⟨(i 0).val / 5000, ht⟩
  refine ⟨⟨(i 0).val / 5000, ht⟩, flush2_4 _, ?_⟩
  rw [mem_blk2]
  intro a
  match a with
  | ⟨0, _⟩ =>
    show win2_4.index ⟨(i 0).val / 5000, ht⟩ (0 : Fin 2) * 5000 ≤ (i 0).val ∧ (i 0).val < win2_4.index ⟨(i 0).val / 5000, ht⟩ (0 : Fin 2) * 5000 + 5000
    rw [e7]; show (i 0).val / 5000 * 5000 ≤ (i 0).val ∧ (i 0).val < (i 0).val / 5000 * 5000 + 5000; omega
  | ⟨1, _⟩ =>
    show win2_4.index ⟨(i 0).val / 5000, ht⟩ (1 : Fin 2) * 64 ≤ (i 1).val ∧ (i 1).val < win2_4.index ⟨(i 0).val / 5000, ht⟩ (1 : Fin 2) * 64 + 64
    rw [e8]; omega

/-- After region 2 its result array is `convAct` of the arrays the region found. -/
theorem final2 (c : Dev nD) : (dat2 V c).arrAt 4 cfg2.N = convAct (n := 50000) (K := 64) (J := 64) (V c main_v35) (V c main_v13) (V c main_arg3) (V c main_arg4) :=
  (dat2 V c).arrAt_eq_of_cover 4 _ (fun t _ => flushed2 V c t) (cover2)

/-! ## Region 3 -/

/-- The printed index maps of region 3, decided over its ten grid points: a row-blocked window is at block `t`, a window
    over a whole small array stays at block zero. -/
theorem idx_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 1) = 0
    ∧ win3_4.index t (0 : Fin 2) = t.val
    ∧ win3_4.index t (1 : Fin 2) = 0 :=
  (by decide +kernel : ∀ t : Fin grid3.N, _)

/-- Row `p` of block `t` of window 0 is row `t · 5000 + p` of its array. -/
theorem rd3_0 (c : Dev nD) (t : Fin cfg3.N) (p : Fin 5000) (k : Fin 64) (P : Fin 50000) (hP : P.val = t.val * 5000 + p.val) :
    (iblk3 V c 0 t : Vec Ideal S5000x64 .f32) (ix2 p k) = (V c main_v46 : Vec Ideal S50000x64 .f32) (ix2 P k) := by
  obtain ⟨e0, e1, e2, e3, e4, e5, e6, e7, e8⟩ := idx_facts3 t
  show V c main_v46 (((cfg3.win 0).blk t).view.emb (ix2 p k)) = _
  refine congrArg (V c main_v46) (funext fun a => Fin.ext ?_)
  match a with
  | ⟨0, _⟩ => show win3_0.index t (0 : Fin 2) * 5000 + 1 * p.val = P.val; omega
  | ⟨1, _⟩ => show win3_0.index t (1 : Fin 2) * 64 + 1 * k.val = k.val; omega

/-- Row `p` of block `t` of window 1 is row `t · 5000 + p` of its array. -/
theorem rd3_1 (c : Dev nD) (t : Fin cfg3.N) (p : Fin 5000) (k : Fin 2) (P : Fin 50000) (hP : P.val = t.val * 5000 + p.val) :
    (iblk3 V c 1 t : Vec Ideal S5000x2 .f32) (ix2 p k) = (V c main_v13 : Vec Ideal S50000x2 .f32) (ix2 P k) := by
  obtain ⟨e0, e1, e2, e3, e4, e5, e6, e7, e8⟩ := idx_facts3 t
  show V c main_v13 (((cfg3.win 1).blk t).view.emb (ix2 p k)) = _
  refine congrArg (V c main_v13) (funext fun a => Fin.ext ?_)
  match a with
  | ⟨0, _⟩ => show win3_1.index t (0 : Fin 2) * 5000 + 1 * p.val = P.val; omega
  | ⟨1, _⟩ => show win3_1.index t (1 : Fin 2) * 2 + 1 * k.val = k.val; omega

/-- Window 2 holds its whole array at every point. -/
theorem rd3_2 (c : Dev nD) (t : Fin cfg3.N) (a : Fin 64) (b : Fin 64) :
    (iblk3 V c 2 t : Vec Ideal S64x64 .f32) (ix2 a b) = (V c main_arg5 : Vec Ideal S64x64 .f32) (ix2 a b) := by
  obtain ⟨e0, e1, e2, e3, e4, e5, e6, e7, e8⟩ := idx_facts3 t
  show V c main_arg5 (((cfg3.win 2).blk t).view.emb (ix2 a b)) = _
  refine congrArg (V c main_arg5) (funext fun x => Fin.ext ?_)
  match x with
  | ⟨0, _⟩ => show win3_2.index t (0 : Fin 2) * 64 + 1 * a.val = a.val; omega
  | ⟨1, _⟩ => show win3_2.index t (1 : Fin 2) * 64 + 1 * b.val = b.val; omega

/-- Window 3 holds its whole vector at every point. -/
theorem rd3_3 (c : Dev nD) (t : Fin cfg3.N) (a : Fin 64) :
    (iblk3 V c 3 t : Vec Ideal S64 .f32) (ix1 a) = (V c main_arg6 : Vec Ideal S64 .f32) (ix1 a) := by
  obtain ⟨e0, e1, e2, e3, e4, e5, e6, e7, e8⟩ := idx_facts3 t
  show V c main_arg6 (((cfg3.win 3).blk t).view.emb (ix1 a)) = _
  refine congrArg (V c main_arg6) (funext fun x => Fin.ext ?_)
  match x with
  | ⟨0, _⟩ => show win3_3.index t (0 : Fin 1) * 64 + 1 * a.val = a.val; omega

/-- What point `t` of region 3 writes back is block `t` of `conv` of the arrays the region finds. -/
theorem flushed3 (c : Dev nD) (t : Fin cfg3.N) :
    (dat3 V c).flushed 4 t = ((cfg3.win 4).blk t).view.read (Elt Ideal) (conv (n := 50000) (K := 64) (J := 64) (V c main_v46) (V c main_v13) (V c main_arg5) (V c main_arg6)) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x2) hz, View.ld_unit_zero (S := S64x64) hz, View.ld_unit_zero (S := S64) hz1]
  rw [Payloads.pay3_eq]
  obtain ⟨e0, e1, e2, e3, e4, e5, e6, e7, e8⟩ := idx_facts3 t
  funext j
  show convAt (n := 5000) (K := 64) (J := 64) (iblk3 V c 0 t) (iblk3 V c 1 t) (iblk3 V c 2 t) (iblk3 V c 3 t) (j 0) (j 1) = convAt (n := 50000) (K := 64) (J := 64) (V c main_v46) (V c main_v13) (V c main_arg5) (V c main_arg6) (((cfg3.win 4).blk t).view.emb j 0) (((cfg3.win 4).blk t).view.emb j 1)
  have hq : (((cfg3.win 4).blk t).view.emb j 1) = (j 1) := (Fin.ext (by show win3_4.index t (1 : Fin 2) * 64 + 1 * (j 1).val = (j 1).val; omega))
  unfold convAt
  rw [rd3_3 V c t (j 1), hq]
  refine congrArg (· + _) ?_
  refine Finset.sum_congr rfl fun k _ => ?_
  rw [rd3_0 V c t (j 0) k (((cfg3.win 4).blk t).view.emb j 0) (by show win3_4.index t (0 : Fin 2) * 5000 + 1 * (j 0).val = t.val * 5000 + (j 0).val; omega), rd3_1 V c t (j 0) 1 (((cfg3.win 4).blk t).view.emb j 0) (by show win3_4.index t (0 : Fin 2) * 5000 + 1 * (j 0).val = t.val * 5000 + (j 0).val; omega), rd3_2 V c t k (j 1)]

/-- An index of the result array is in point `t`'s block iff its row is among that block's 5000 rows. -/
theorem mem_blk3 (t : Fin cfg3.N) (i : S50000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v47).slice (win3_4.rect t)).set ↔ _
  rw [View.set_slice_whole, Rect.mem_set_unit]
  exact Iff.rfl

/-- The ten blocks of 5000 rows cover the result array: row `i` is in block `i / 5000`. -/
theorem cover3 (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : grid3.N = 10 := N_3
  have ht : (i 0).val / 5000 < grid3.N := by rw [hN]; omega
  obtain ⟨e0, e1, e2, e3, e4, e5, e6, e7, e8⟩ := idx_facts3 ⟨(i 0).val / 5000, ht⟩
  refine ⟨⟨(i 0).val / 5000, ht⟩, flush3_4 _, ?_⟩
  rw [mem_blk3]
  intro a
  match a with
  | ⟨0, _⟩ =>
    show win3_4.index ⟨(i 0).val / 5000, ht⟩ (0 : Fin 2) * 5000 ≤ (i 0).val ∧ (i 0).val < win3_4.index ⟨(i 0).val / 5000, ht⟩ (0 : Fin 2) * 5000 + 5000
    rw [e7]; show (i 0).val / 5000 * 5000 ≤ (i 0).val ∧ (i 0).val < (i 0).val / 5000 * 5000 + 5000; omega
  | ⟨1, _⟩ =>
    show win3_4.index ⟨(i 0).val / 5000, ht⟩ (1 : Fin 2) * 64 ≤ (i 1).val ∧ (i 1).val < win3_4.index ⟨(i 0).val / 5000, ht⟩ (1 : Fin 2) * 64 + 64
    rw [e8]; omega

/-- After region 3 its result array is `conv` of the arrays the region found. -/
theorem final3 (c : Dev nD) : (dat3 V c).arrAt 4 cfg3.N = conv (n := 50000) (K := 64) (J := 64) (V c main_v46) (V c main_v13) (V c main_arg5) (V c main_arg6) :=
  (dat3 V c).arrAt_eq_of_cover 4 _ (fun t _ => flushed3 V c t) (cover3)

end Cert.KernelIdeal.Blocks

end
-- ==== Proof.KernelOut.lean ====
/-
  The idealized kernel's result array as one function of the argument arrays.

  Each region's result array is the dense stage of what the region read (Blocks.lean), and what it read is known at its
  entry (KernelStages.lean). Composing the four regions:

      conv (agg (convAct (agg (epi (agg (proj X Nm W0)) Nm b0)) Nm W1 b1)) Nm W2 b2

  of the features X, the norms Nm and the weights and biases.
-/
import proofs.«152768_j80633716015250_2_alg».proof.Proof.KernelStages
import proofs.«152768_j80633716015250_2_alg».proof.Proof.Blocks

set_option maxRecDepth 16384

noncomputable section

namespace Cert.KernelIdeal.Stages

open Cert.KernelIdeal Cert.KernelIdeal.Gen Cert.Gcn
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The regions' result arrays -/

theorem V6_v14 (c : Dev nD) : V6 m ρ c main_v14 = proj (n := 50000) (K := 128) (J := 64) (V5 m ρ c main_arg0) (V5 m ρ c main_v13) (V5 m ρ c main_arg1) :=
  (hF0 m ρ c 3).symm.trans (Blocks.final0 (V5 m ρ) c)
theorem V8_v25 (c : Dev nD) : V8 m ρ c main_v25 = epi (n := 50000) (J := 64) (V7 m ρ c main_v24) (V7 m ρ c main_v13) (V7 m ρ c main_arg2) :=
  (hF1 m ρ c 3).symm.trans (Blocks.final1 (V7 m ρ) c)
theorem V10_v36 (c : Dev nD) : V10 m ρ c main_v36 = convAct (n := 50000) (K := 64) (J := 64) (V9 m ρ c main_v35) (V9 m ρ c main_v13) (V9 m ρ c main_arg3) (V9 m ρ c main_arg4) :=
  (hF2 m ρ c 4).symm.trans (Blocks.final2 (V9 m ρ) c)
theorem V12_v47 (c : Dev nD) : V12 m ρ c main_v47 = conv (n := 50000) (K := 64) (J := 64) (V11 m ρ c main_v46) (V11 m ρ c main_v13) (V11 m ρ c main_arg5) (V11 m ρ c main_arg6) :=
  (hF3 m ρ c 4).symm.trans (Blocks.final3 (V11 m ρ) c)

/-- THE KERNEL'S RESULT as one function of the argument arrays. -/
theorem kernel_out (c : Dev nD) : V12 m ρ c main_v47 =
    conv (n := 50000) (K := 64) (J := 64)
      (aggK (m ((c : Thread nD τ).loc main_arg7)) (m ((c : Thread nD τ).loc main_arg8))
        (convAct (n := 50000) (K := 64) (J := 64)
          (aggK (m ((c : Thread nD τ).loc main_arg7)) (m ((c : Thread nD τ).loc main_arg8))
            (epi (n := 50000) (J := 64)
              (aggK (m ((c : Thread nD τ).loc main_arg7)) (m ((c : Thread nD τ).loc main_arg8))
                (proj (n := 50000) (K := 128) (J := 64) (m ((c : Thread nD τ).loc main_arg0))
                  (norms (m ((c : Thread nD τ).loc main_arg7)) (m ((c : Thread nD τ).loc main_arg8)))
                  (m ((c : Thread nD τ).loc main_arg1))))
              (norms (m ((c : Thread nD τ).loc main_arg7)) (m ((c : Thread nD τ).loc main_arg8)))
              (m ((c : Thread nD τ).loc main_arg2))))
          (norms (m ((c : Thread nD τ).loc main_arg7)) (m ((c : Thread nD τ).loc main_arg8)))
          (m ((c : Thread nD τ).loc main_arg3)) (m ((c : Thread nD τ).loc main_arg4))))
      (norms (m ((c : Thread nD τ).loc main_arg7)) (m ((c : Thread nD τ).loc main_arg8)))
      (m ((c : Thread nD τ).loc main_arg5)) (m ((c : Thread nD τ).loc main_arg6)) := by
  rw [V12_v47, V11_main_v46, V11_v13, V11_arg5, V11_arg6, V10_v36, V9_main_v35, V9_v13, V9_arg3, V9_arg4, V8_v25, V7_main_v24, V7_v13, V7_arg2,
    V6_v14, V5_v13, V5_arg0, V5_arg1]

end Cert.KernelIdeal.Stages

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.HostLayer.lean ====
/-
  The reference's dense stages, written with whole-array host operations, are the same entry-by-entry functions.

  On the host a per-node scale is a vector made a column and spread over the row; a bias is a vector made a row and
  spread down the rows; the product is one contraction over the middle axis. Read at (p, q): the spread scale is the
  vector at p, the spread bias the vector at q, and the contraction the sum over k of A(p,k)·W(k,q). So
  (A ⊙ scale) · W + bias is `conv`, and its clamp at zero rescaled by the other norm is `convAct`, for any two-column
  array of norms whose columns are the two scale vectors.
-/
import proofs.«152768_j80633716015250_2_alg».proof.Proof.GcnSpec
import proofs.«152768_j80633716015250_2_alg».proof.Proof.LibHostKeepdims
import proofs.«152768_j80633716015250_2_alg».proof.Proof.LibHostMatmulNN

noncomputable section

open scoped BigOperators

namespace Cert.Gcn

open Idealize.ShloMosaic Idealize.ShloMosaic.ValueIdx

variable {n K J : ℕ}

/-- A vector made a column and spread over [n, b], at (p, c): the vector at p. -/
theorem hostCol_apply {b : ℕ} (v : Vct n) (h1 : (⟨1, ![n]⟩ : Shape).BroadcastsInDim ⟨2, ![n, 1]⟩ ![0])
    (h2 : (⟨2, ![n, 1]⟩ : Shape).BroadcastsInDim ⟨2, ![n, b]⟩ ![0, 1]) (p : Fin n) (c : Fin b) :
    broadcastInDim ⟨2, ![n, b]⟩ ![0, 1] h2 (broadcastInDim ⟨2, ![n, 1]⟩ ![0] h1 v) (ix2 p c) = v (ix1 p) :=
  (broadcastInDim_a1_ab_apply ![0, 1] h2 rfl _ p c).trans (broadcastInDim_a_a1_apply ![0] h1 rfl v p 0)

/-- A vector made a row and spread down [n, J], at (p, q): the vector at q. -/
theorem hostBias_apply (b : Vct J) (h3 : (⟨1, ![J]⟩ : Shape).BroadcastsInDim ⟨2, ![1, J]⟩ ![1])
    (h4 : (⟨2, ![1, J]⟩ : Shape).BroadcastsInDim ⟨2, ![n, J]⟩ ![0, 1]) (p : Fin n) (q : Fin J) :
    broadcastInDim ⟨2, ![n, J]⟩ ![0, 1] h4 (broadcastInDim ⟨2, ![1, J]⟩ ![1] h3 b) (ix2 p q) = b (ix1 q) :=
  (broadcastInDim_1b_ab_apply ![0, 1] h4 rfl _ p q).trans (broadcastInDim_b_1b_apply ![1] h3 rfl b 0 q)

/-- (A ⊙ in-scale) · W + bias on the host is `conv`. -/
theorem hostConv_eq (d : DotDims ⟨2, ![n, K]⟩ ⟨2, ![K, J]⟩ ⟨2, ![n, J]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : Mat n K) (inn : Vct n) (W : Mat K J) (b : Vct J) (Nm : Mat n 2) (hNm1 : ∀ p, Nm (ix2 p 1) = inn (ix1 p))
    (h1 : (⟨1, ![n]⟩ : Shape).BroadcastsInDim ⟨2, ![n, 1]⟩ ![0])
    (h2 : (⟨2, ![n, 1]⟩ : Shape).BroadcastsInDim ⟨2, ![n, K]⟩ ![0, 1])
    (h3 : (⟨1, ![J]⟩ : Shape).BroadcastsInDim ⟨2, ![1, J]⟩ ![1])
    (h4 : (⟨2, ![1, J]⟩ : Shape).BroadcastsInDim ⟨2, ![n, J]⟩ ![0, 1]) :
    addf (Host.dotGeneral d prec (mulf A (broadcastInDim ⟨2, ![n, K]⟩ ![0, 1] h2 (broadcastInDim ⟨2, ![n, 1]⟩ ![0] h1 inn))) W)
        (broadcastInDim ⟨2, ![n, J]⟩ ![0, 1] h4 (broadcastInDim ⟨2, ![1, J]⟩ ![1] h3 b)) = conv A Nm W b := by
  funext i
  obtain ⟨p, q, rfl⟩ : ∃ (p : Fin n) (q : Fin J), i = ix2 p q := ⟨i 0, i 1, eq_ix2 i⟩
  show Host.dotGeneral d prec (mulf A (broadcastInDim ⟨2, ![n, K]⟩ ![0, 1] h2 (broadcastInDim ⟨2, ![n, 1]⟩ ![0] h1 inn))) W (ix2 p q)
      + broadcastInDim ⟨2, ![n, J]⟩ ![0, 1] h4 (broadcastInDim ⟨2, ![1, J]⟩ ![1] h3 b) (ix2 p q) = convAt A Nm W b p q
  rw [Cert.LibHostMatmulNN.hostDot_nn_apply d hlc hrc hln hrn hlb hrb prec _ W p q, hostBias_apply b h3 h4 p q]
  unfold convAt
  refine congrArg (fun z : Ideal .f32 => z + b (ix1 q)) ?_
  refine Finset.sum_congr rfl fun k _ => ?_
  refine congrArg (fun z : Ideal .f32 => z * W (ix2 k q)) ?_
  show A (ix2 p k) * broadcastInDim ⟨2, ![n, K]⟩ ![0, 1] h2 (broadcastInDim ⟨2, ![n, 1]⟩ ![0] h1 inn) (ix2 p k) = _
  rw [hostCol_apply inn h1 h2 p k, hNm1 p]

/-- The same, clamped at zero and rescaled by the out-scale, is `convAct`. -/
theorem hostConvAct_eq (d : DotDims ⟨2, ![n, K]⟩ ⟨2, ![K, J]⟩ ⟨2, ![n, J]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : Mat n K) (inn on : Vct n) (W : Mat K J) (b : Vct J) (Nm : Mat n 2)
    (hNm0 : ∀ p, Nm (ix2 p 0) = on (ix1 p)) (hNm1 : ∀ p, Nm (ix2 p 1) = inn (ix1 p))
    (h1 : (⟨1, ![n]⟩ : Shape).BroadcastsInDim ⟨2, ![n, 1]⟩ ![0])
    (h2 : (⟨2, ![n, 1]⟩ : Shape).BroadcastsInDim ⟨2, ![n, K]⟩ ![0, 1])
    (h3 : (⟨1, ![J]⟩ : Shape).BroadcastsInDim ⟨2, ![1, J]⟩ ![1])
    (h4 : (⟨2, ![1, J]⟩ : Shape).BroadcastsInDim ⟨2, ![n, J]⟩ ![0, 1])
    (h0 : (⟨0, ![]⟩ : Shape).BroadcastsInDim ⟨2, ![n, J]⟩ ![])
    (h5 : (⟨2, ![n, 1]⟩ : Shape).BroadcastsInDim ⟨2, ![n, J]⟩ ![0, 1]) :
    mulf (maximumf
          (addf (Host.dotGeneral d prec (mulf A (broadcastInDim ⟨2, ![n, K]⟩ ![0, 1] h2 (broadcastInDim ⟨2, ![n, 1]⟩ ![0] h1 inn))) W)
            (broadcastInDim ⟨2, ![n, J]⟩ ![0, 1] h4 (broadcastInDim ⟨2, ![1, J]⟩ ![1] h3 b)))
          (broadcastInDim ⟨2, ![n, J]⟩ ![] h0 (constant (F := Ideal) ⟨0, ![]⟩ .f32 0x00000000#32)))
        (broadcastInDim ⟨2, ![n, J]⟩ ![0, 1] h5 (broadcastInDim ⟨2, ![n, 1]⟩ ![0] h1 on)) = convAct A Nm W b := by
  funext i
  obtain ⟨p, q, rfl⟩ : ∃ (p : Fin n) (q : Fin J), i = ix2 p q := ⟨i 0, i 1, eq_ix2 i⟩
  show max (addf (Host.dotGeneral d prec (mulf A (broadcastInDim ⟨2, ![n, K]⟩ ![0, 1] h2 (broadcastInDim ⟨2, ![n, 1]⟩ ![0] h1 inn))) W)
            (broadcastInDim ⟨2, ![n, J]⟩ ![0, 1] h4 (broadcastInDim ⟨2, ![1, J]⟩ ![1] h3 b)) (ix2 p q))
          (broadcastInDim ⟨2, ![n, J]⟩ ![] h0 (constant (F := Ideal) ⟨0, ![]⟩ .f32 0x00000000#32) (ix2 p q))
      * broadcastInDim ⟨2, ![n, J]⟩ ![0, 1] h5 (broadcastInDim ⟨2, ![n, 1]⟩ ![0] h1 on) (ix2 p q) = convActAt A Nm W b p q
  rw [congrFun (hostConv_eq d hlc hrc hln hrn hlb hrb prec A inn W b Nm hNm1 h1 h2 h3 h4) (ix2 p q),
    broadcastInDim_scalar_apply, hostCol_apply on h1 h5 p q, ← hNm0 p]
  rfl

end Cert.Gcn

end
-- ==== Proof.RefStages.lean ====
/-
  The reference's result as the same composition of dense stages and aggregations.

  The reference is a straight line of host operations. Each of its three layers ends in
  (aggregate ⊙ in-scale) · W + bias, the first two clamped at zero and rescaled by the out-scale for the next layer:
  `conv` and `convAct` of the aggregated array, for any two-column array of norms whose columns are the reference's
  two scale vectors. Each aggregate is `agg` of the previous layer's array; the first layer aggregates the features
  scaled by the out-scale, 128 wide.
-/
import proofs.«152768_j80633716015250_2_alg».proof.Proof.Gen.ReferenceIdeal.Read
import proofs.«152768_j80633716015250_2_alg».proof.Proof.HostLayer
import proofs.«152768_j80633716015250_2_alg».proof.Proof.Layer0

noncomputable section

namespace Cert.ReferenceIdeal.RefValue

open Cert.ReferenceIdeal Cert.ReferenceIdeal.Gen Cert.ReferenceIdeal.Read Cert.Gcn
open Idealize.ShloMosaic Idealize.ShloMosaic.ValueIdx

variable (x0 : FVec Ideal S50000x128 .f32) (x1 : FVec Ideal S128x64 .f32) (x2 : FVec Ideal S64 .f32)
  (x3 : FVec Ideal S64x64 .f32) (x4 : FVec Ideal S64 .f32) (x5 : FVec Ideal S64x64 .f32) (x6 : FVec Ideal S64 .f32)
  (x7 x8 : IVec S1600000 32)
variable (Nm : Mat 50000 2) (hNm0 : ∀ p, Nm (ix2 p 0) = val_main_v9 (F := Ideal) x7 (ix1 p))
  (hNm1 : ∀ p, Nm (ix2 p 1) = val_main_v10 (F := Ideal) x8 (ix1 p))

include hNm1 in
/-- The last layer: `conv` of the third aggregate. -/
theorem v72_eq : val_main_v72 (F := Ideal) x0 x1 x2 x3 x4 x5 x6 x7 x8
    = conv (n := 50000) (K := 64) (J := 64) (val_main_v65 (F := Ideal) x0 x1 x2 x3 x4 x7 x8) Nm x5 x6 := by
  unfold val_main_v72 val_main_v69 val_main_v68 val_main_v67 val_main_v66 val_main_v71 val_main_v70
  exact hostConv_eq dot_S50000x64_S64x64_S50000x64_1_0_0_1_n_n rfl rfl rfl rfl rfl rfl none _
    (val_main_v10 (F := Ideal) x8) x5 x6 Nm hNm1 _ _ _ _

include hNm0 hNm1 in
/-- The middle layer: `convAct` of the second aggregate. -/
theorem v55_eq : val_main_v55 (F := Ideal) x0 x1 x2 x3 x4 x7 x8
    = convAct (n := 50000) (K := 64) (J := 64) (val_main_v44 (F := Ideal) x0 x1 x2 x7 x8) Nm x3 x4 := by
  unfold val_main_v55 val_main_v52 val_main_v51 val_main_v48 val_main_v47 val_main_v46 val_main_v45 val_main_v50
    val_main_v49 val_main_v54 val_main_v53 val_main_call3_v0 val_main_call3_cst
  exact hostConvAct_eq dot_S50000x64_S64x64_S50000x64_1_0_0_1_n_n rfl rfl rfl rfl rfl rfl none _
    (val_main_v10 (F := Ideal) x8) (val_main_v9 (F := Ideal) x7) x3 x4 Nm hNm0 hNm1 _ _ _ _ _ _

include hNm0 hNm1 in
/-- The first layer: `convAct` of the first aggregate, 128 wide. -/
theorem v34_eq : val_main_v34 (F := Ideal) x0 x1 x2 x7 x8
    = convAct (n := 50000) (K := 128) (J := 64) (val_main_v23 (F := Ideal) x0 x7 x8) Nm x1 x2 := by
  unfold val_main_v34 val_main_v31 val_main_v30 val_main_v27 val_main_v26 val_main_v25 val_main_v24 val_main_v29
    val_main_v28 val_main_v33 val_main_v32 val_main_call2_v0 val_main_call2_cst
  exact hostConvAct_eq dot_S50000x128_S128x64_S50000x64_1_0_0_1_n_n rfl rfl rfl rfl rfl rfl none _
    (val_main_v10 (F := Ideal) x8) (val_main_v9 (F := Ideal) x7) x1 x2 Nm hNm0 hNm1 _ _ _ _ _ _

/-- The third aggregate is `agg` of the middle layer. -/
theorem v65_eq : val_main_v65 (F := Ideal) x0 x1 x2 x3 x4 x7 x8
    = agg scatter_S50000x64_S1600000x1_S1600000x64_1_0_0_1 gather_S50000x64_S1600000x1_S1600000x64_1_0_n_n_0_1_164
        (val_main_v63 (F := Ideal)) (val_main_v61 (F := Ideal) x7) (val_main_v64 (F := Ideal) x8)
        (val_main_v55 (F := Ideal) x0 x1 x2 x3 x4 x7 x8) := rfl

/-- The second aggregate is `agg` of the first layer. -/
theorem v44_eq : val_main_v44 (F := Ideal) x0 x1 x2 x7 x8
    = agg scatter_S50000x64_S1600000x1_S1600000x64_1_0_0_1 gather_S50000x64_S1600000x1_S1600000x64_1_0_n_n_0_1_164
        (val_main_v42 (F := Ideal)) (val_main_v40 (F := Ideal) x7) (val_main_v43 (F := Ideal) x8)
        (val_main_v34 (F := Ideal) x0 x1 x2 x7 x8) := rfl

/-- The first aggregate is `agg` of the scaled features. -/
theorem v23_eq : val_main_v23 (F := Ideal) x0 x7 x8
    = agg scatter_S50000x128_S1600000x1_S1600000x128_1_0_0_1 gather_S50000x128_S1600000x1_S1600000x128_1_0_n_n_0_1_1128
        (val_main_v21 (F := Ideal)) (val_main_v19 (F := Ideal) x7) (val_main_v22 (F := Ideal) x8)
        (val_main_v13 (F := Ideal) x0 x7) := rfl

/-- The scaled features at (p, k): the feature times the out-scale of node p. -/
theorem v13_apply (p : Fin 50000) (k : Fin 128) :
    val_main_v13 (F := Ideal) x0 x7 (ix2 p k) = x0 (ix2 p k) * val_main_v9 (F := Ideal) x7 (ix1 p) := by
  unfold val_main_v13 val_main_v12 val_main_v11
  show x0 (ix2 p k) * _ = _
  rw [hostCol_apply (val_main_v9 (F := Ideal) x7) bcast_S50000_S50000x1_0 bcast_S50000x1_S50000x128_0_1 p k]

end Cert.ReferenceIdeal.RefValue

end
-- ==== Proof.Bridge.lean ====
/-
  The two programs compute one function.

  Both results are `conv (agg (convAct (agg L1)) …) …` of the same norms, weights and biases, where the first
  layer's array L1 is, for the kernel, `epi (agg (proj X Nm W0)) Nm b0` — project, aggregate 64 wide, scale — and, for
  the reference, `convAct (agg (X ⊙ out-scale)) Nm W0 b0` — aggregate 128 wide, scale, project. For real features and
  weights the first-layer law makes them equal; the norms are real because a degree is a finite count clamped below at
  one. The aggregations, the index arithmetic and the norm vectors are the same host operations in both programs.
-/
import proofs.«152768_j80633716015250_2_alg».proof.Proof.KernelDefs
import proofs.«152768_j80633716015250_2_alg».proof.Proof.RefStages

noncomputable section

namespace Cert.Bridge

open Cert.Gcn Cert.LibReal Cert.LibRealOps
open Cert.KernelIdeal.Stages
open Idealize.ShloMosaic Idealize.ShloMosaic.ValueIdx

/-- The zero array holds zeros. -/
theorem zeros64_apply (i : Cert.KernelIdeal.S50000x64.Idx) : zeros64 i = 0 := by
  unfold zeros64
  rw [broadcastInDim_scalar_apply]
  exact Ideal.ofBits_zero_f32

theorem zeros128_apply (i : Cert.ReferenceIdeal.S50000x128.Idx) : Cert.ReferenceIdeal.Read.val_main_v21 (F := Ideal) i = 0 := by
  unfold Cert.ReferenceIdeal.Read.val_main_v21 Cert.ReferenceIdeal.Read.val_main_cst_5
  rw [broadcastInDim_scalar_apply]
  exact Ideal.ofBits_zero_f32

/-- The host's inverse square root, entry by entry. -/
theorem hostRsqrt_apply {s : Shape} (v : FVec Ideal s .f32) (i : s.Idx) :
    Host.rsqrt v i = FloatOps.hostUnary (F := Ideal) (φ := .f32) .rsqrt (v i) := rfl

/-- A degree normalisation is a real number: the degree is zero plus a sum of ones and zeros, clamped below at one. -/
theorem normVec_real (x : IVec Cert.KernelIdeal.S1600000 32) (p : Fin 50000) : IsReal (normVec x (ix1 p)) := by
  unfold normVec degClip
  rw [hostRsqrt_apply, maximumf_apply, broadcastInDim_scalar_apply]
  refine rsqrt_clip_real _ (scatterAdd_real _ _ _ _ (fun i => ?_) (fun j => ?_) _)
  · rw [broadcastInDim_scalar_apply]
    exact ⟨0, Ideal.ofBits_zero_f32.trans EReal.coe_zero.symm⟩
  · rw [broadcastInDim_scalar_apply]
    exact ⟨1, one_word.trans EReal.coe_one.symm⟩

/-- The norm vectors are the reference's. -/
theorem normVec_eq9 (x : IVec Cert.KernelIdeal.S1600000 32) : normVec x = Cert.ReferenceIdeal.Read.val_main_v9 (F := Ideal) x := rfl
theorem normVec_eq10 (x : IVec Cert.KernelIdeal.S1600000 32) : normVec x = Cert.ReferenceIdeal.Read.val_main_v10 (F := Ideal) x := rfl

/-- The two columns of the norms are the two norm vectors. -/
theorem norms_col0 (x7 x8 : IVec Cert.KernelIdeal.S1600000 32) (p : Fin 50000) : norms x7 x8 (ix2 p 0) = normVec x7 (ix1 p) := by
  unfold norms
  rw [pairCols_left]
  exact broadcastInDim_a_a1_apply ![0] _ rfl _ p 0

theorem norms_col1 (x7 x8 : IVec Cert.KernelIdeal.S1600000 32) (p : Fin 50000) : norms x7 x8 (ix2 p 1) = normVec x8 (ix1 p) := by
  unfold norms
  rw [pairCols_right]
  exact broadcastInDim_a_a1_apply ![0] _ rfl _ p 0

theorem norms_real (x7 x8 : IVec Cert.KernelIdeal.S1600000 32) (i : Cert.KernelIdeal.S50000x2.Idx) : IsReal (norms x7 x8 i) := by
  obtain ⟨p, c, rfl⟩ : ∃ (p : Fin 50000) (c : Fin 2), i = ix2 p c := ⟨i 0, i 1, eq_ix2 i⟩
  match c with
  | ⟨0, _⟩ =>
    show IsReal (norms x7 x8 (ix2 p 0))
    rw [norms_col0]
    exact normVec_real x7 p
  | ⟨1, _⟩ =>
    show IsReal (norms x7 x8 (ix2 p 1))
    rw [norms_col1]
    exact normVec_real x8 p

/-- The reference's aggregations are the kernel's. -/
theorem aggR3 (x7 x8 : IVec Cert.KernelIdeal.S1600000 32) (h : FVec Ideal Cert.KernelIdeal.S50000x64 .f32) :
    agg Cert.ReferenceIdeal.scatter_S50000x64_S1600000x1_S1600000x64_1_0_0_1 Cert.ReferenceIdeal.gather_S50000x64_S1600000x1_S1600000x64_1_0_n_n_0_1_164
      (Cert.ReferenceIdeal.Read.val_main_v63 (F := Ideal)) (Cert.ReferenceIdeal.Read.val_main_v61 (F := Ideal) x7) (Cert.ReferenceIdeal.Read.val_main_v64 (F := Ideal) x8) h
    = aggK x7 x8 h := rfl

theorem aggR2 (x7 x8 : IVec Cert.KernelIdeal.S1600000 32) (h : FVec Ideal Cert.KernelIdeal.S50000x64 .f32) :
    agg Cert.ReferenceIdeal.scatter_S50000x64_S1600000x1_S1600000x64_1_0_0_1 Cert.ReferenceIdeal.gather_S50000x64_S1600000x1_S1600000x64_1_0_n_n_0_1_164
      (Cert.ReferenceIdeal.Read.val_main_v42 (F := Ideal)) (Cert.ReferenceIdeal.Read.val_main_v40 (F := Ideal) x7) (Cert.ReferenceIdeal.Read.val_main_v43 (F := Ideal) x8) h
    = aggK x7 x8 h := rfl

/-- The first layer, both ways. -/
theorem layer0_eq (x0 : FVec Ideal Cert.KernelIdeal.S50000x128 .f32) (x1 : FVec Ideal Cert.KernelIdeal.S128x64 .f32) (x2 : FVec Ideal Cert.KernelIdeal.S64 .f32)
    (x7 x8 : IVec Cert.KernelIdeal.S1600000 32) (hX : ∀ i, IsReal (x0 i)) (hW : ∀ i, IsReal (x1 i)) :
    epi (n := 50000) (J := 64) (aggK x7 x8 (proj (n := 50000) (K := 128) (J := 64) x0 (norms x7 x8) x1)) (norms x7 x8) x2
      = convAct (n := 50000) (K := 128) (J := 64)
          (agg Cert.ReferenceIdeal.scatter_S50000x128_S1600000x1_S1600000x128_1_0_0_1 Cert.ReferenceIdeal.gather_S50000x128_S1600000x1_S1600000x128_1_0_n_n_0_1_1128
            (Cert.ReferenceIdeal.Read.val_main_v21 (F := Ideal)) (Cert.ReferenceIdeal.Read.val_main_v19 (F := Ideal) x7) (Cert.ReferenceIdeal.Read.val_main_v22 (F := Ideal) x8)
            (Cert.ReferenceIdeal.Read.val_main_v13 (F := Ideal) x0 x7)) (norms x7 x8) x1 x2 :=
  layer0 Cert.KernelIdeal.scatter_S50000x64_S1600000x1_S1600000x64_1_0_0_1 rfl rfl rfl rfl
    Cert.ReferenceIdeal.scatter_S50000x128_S1600000x1_S1600000x128_1_0_0_1 rfl rfl rfl rfl
    Cert.KernelIdeal.Facts₀.gather_S50000x64_S1600000x1_S1600000x64_1_0_n_n_0_1_164_wf
    Cert.ReferenceIdeal.Facts₀.gather_S50000x128_S1600000x1_S1600000x128_1_0_n_n_0_1_1128_wf
    zeros64 zeros64_apply (Cert.ReferenceIdeal.Read.val_main_v21 (F := Ideal)) zeros128_apply
    (srcRows x7) (dstRows x8) x0 (Cert.ReferenceIdeal.Read.val_main_v13 (F := Ideal) x0 x7) (norms x7 x8) x1 x2
    (fun p k => by rw [Cert.ReferenceIdeal.RefValue.v13_apply, ← normVec_eq9, norms_col0])
    hX (norms_real x7 x8) hW

/-- THE BRIDGE: the reference's result term is the kernel's function of the same arguments, for real features and
    first-layer weights. -/
theorem ref_eq_kernel (x0 : FVec Ideal Cert.KernelIdeal.S50000x128 .f32) (x1 : FVec Ideal Cert.KernelIdeal.S128x64 .f32) (x2 : FVec Ideal Cert.KernelIdeal.S64 .f32)
    (x3 : FVec Ideal Cert.KernelIdeal.S64x64 .f32) (x4 : FVec Ideal Cert.KernelIdeal.S64 .f32) (x5 : FVec Ideal Cert.KernelIdeal.S64x64 .f32) (x6 : FVec Ideal Cert.KernelIdeal.S64 .f32)
    (x7 x8 : IVec Cert.KernelIdeal.S1600000 32) (hX : ∀ i, IsReal (x0 i)) (hW : ∀ i, IsReal (x1 i)) :
    Cert.ReferenceIdeal.Read.val_main_v72 (F := Ideal) x0 x1 x2 x3 x4 x5 x6 x7 x8
      = conv (n := 50000) (K := 64) (J := 64)
          (aggK x7 x8 (convAct (n := 50000) (K := 64) (J := 64)
            (aggK x7 x8 (epi (n := 50000) (J := 64) (aggK x7 x8 (proj (n := 50000) (K := 128) (J := 64) x0 (norms x7 x8) x1)) (norms x7 x8) x2))
            (norms x7 x8) x3 x4))
          (norms x7 x8) x5 x6 := by
  have hN0 : ∀ p, norms x7 x8 (ix2 p 0) = Cert.ReferenceIdeal.Read.val_main_v9 (F := Ideal) x7 (ix1 p) := fun p => by
    rw [norms_col0, normVec_eq9]
  have hN1 : ∀ p, norms x7 x8 (ix2 p 1) = Cert.ReferenceIdeal.Read.val_main_v10 (F := Ideal) x8 (ix1 p) := fun p => by
    rw [norms_col1, normVec_eq10]
  rw [Cert.ReferenceIdeal.RefValue.v72_eq x0 x1 x2 x3 x4 x5 x6 x7 x8 (norms x7 x8) hN1, Cert.ReferenceIdeal.RefValue.v65_eq, aggR3,
    Cert.ReferenceIdeal.RefValue.v55_eq x0 x1 x2 x3 x4 x7 x8 (norms x7 x8) hN0 hN1, Cert.ReferenceIdeal.RefValue.v44_eq, aggR2,
    Cert.ReferenceIdeal.RefValue.v34_eq x0 x1 x2 x7 x8 (norms x7 x8) hN0 hN1, Cert.ReferenceIdeal.RefValue.v23_eq, ← layer0_eq x0 x1 x2 x7 x8 hX hW]

end Cert.Bridge

end
-- ==== Proof.Finite.lean ====
/-
  Under the precondition the features and the first weight matrix hold real numbers.

  The precondition is the conjunction, over the seven float arguments, of "every entry's absolute value is below plus
  infinity". Peeling the conjunction from the right leaves the two conjuncts of the features and the first weights;
  each is an all-reduction by `and` that came out 1, so every compared entry gave 1, and an extended real whose
  absolute value is below plus infinity is a real number.
-/
import proofs.«152768_j80633716015250_2_alg».proof.Pre_finite_inputs
import proofs.«152768_j80633716015250_2_alg».proof.Proof.Gen.Pre_finite_inputs
import proofs.«152768_j80633716015250_2_alg».proof.Proof.LibReal
import Idealize.ShloMosaic.Lib.ReduceAll
import Idealize.ShloMosaic.Lib.ValueIdx

noncomputable section

namespace Cert.Pre_finite_inputs.Finite

open Cert.Pre_finite_inputs Cert.LibReal Idealize.ShloMosaic Idealize.ShloMosaic.ValueIdx

/-- The features and the first weights are real entry by entry. -/
theorem real_of_pre (a0 : FVec Ideal S50000x128 .f32) (a1 : FVec Ideal S128x64 .f32) (a2 : FVec Ideal S64 .f32)
    (a3 : FVec Ideal S64x64 .f32) (a4 : FVec Ideal S64 .f32) (a5 : FVec Ideal S64x64 .f32) (a6 : FVec Ideal S64 .f32)
    (a7 a8 : IVec S1600000 32)
    (h : fn (F := Ideal) a0 a1 a2 a3 a4 a5 a6 a7 a8 = fun _ => 1#1) :
    (∀ i, IsReal (a0 i)) ∧ (∀ i, IsReal (a1 i)) := by
  have h0 := congrFun h ix0
  dsimp only [fn, fn_part1] at h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨hA, hB⟩ := IntOp.andi_eq_one.1 h0
  exact ⟨fun i => elem_real _ a0 i (Host.reduce_andi_all _ _ _ _ ix0 hA i),
    fun i => elem_real _ a1 i (Host.reduce_andi_all _ _ _ _ ix0 hB i)⟩

end Cert.Pre_finite_inputs.Finite

end
-- ==== Proof.lean ====
/-
  A three-layer graph convolution: four pipelined kernels among host aggregations, against the plain reference.

  The claim: under finite float inputs the idealized kernel and the idealized reference end with equal results.
  Mathematics. Each layer computes D_out^(-1/2) A D_in^(-1/2) H W + b. The kernel's first layer multiplies by the
  weights before aggregating along the edges (64 wide instead of 128) and folds the next layer's out-degree scale
  into each epilogue; the reference aggregates first. Entry by entry both are the same composition of dense stages
  and edge aggregations (Bridge.lean), the first layer by the interchange of the edge sum with the product by the
  weights, which holds because features, weights and degree normalisations are real numbers: the features and weights
  by the precondition, the normalisations because a degree is a finite count clamped below at one.

  The three frames: the two kernels' are the generated frame certificates; the reference's is its generated run with
  the result dropped. The idealization rewrote no operation, so `preserves` is trivial.
-/
import proofs.«152768_j80633716015250_2_alg».proof.Defs
import proofs.«152768_j80633716015250_2_alg».proof.Proof.Gen.Kernel
import proofs.«152768_j80633716015250_2_alg».proof.Proof.Gen.Kernel.Skeleton
import proofs.«152768_j80633716015250_2_alg».proof.Proof.Gen.Kernel.Launch
import proofs.«152768_j80633716015250_2_alg».proof.Proof.Gen.Kernel.Points
import proofs.«152768_j80633716015250_2_alg».proof.Proof.Gen.Kernel.Frame
import proofs.«152768_j80633716015250_2_alg».proof.Proof.Gen.KernelIdeal
import proofs.«152768_j80633716015250_2_alg».proof.Proof.Gen.KernelIdeal.Skeleton
import proofs.«152768_j80633716015250_2_alg».proof.Proof.Gen.KernelIdeal.Launch
import proofs.«152768_j80633716015250_2_alg».proof.Proof.Gen.KernelIdeal.Points
import proofs.«152768_j80633716015250_2_alg».proof.Proof.Gen.KernelIdeal.Frame
import proofs.«152768_j80633716015250_2_alg».proof.Proof.Gen.ReferenceIdeal
import proofs.«152768_j80633716015250_2_alg».proof.Proof.Gen.ReferenceIdeal.Read
import proofs.«152768_j80633716015250_2_alg».proof.Proof.Gen.Pre_finite_inputs
import proofs.«152768_j80633716015250_2_alg».proof.Proof.KernelRun
import proofs.«152768_j80633716015250_2_alg».proof.Proof.KernelOut
import proofs.«152768_j80633716015250_2_alg».proof.Proof.Bridge
import proofs.«152768_j80633716015250_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the kernel's function of the arguments: the kernel by its run read
    through the regions, the reference by its run and the bridge, from arguments that agree. -/
theorem algebraic : Cert.algebraic_KernelIdeal_ReferenceIdeal := by
  intro m ρ m' ρ' hpre hagree
  refine ⟨fun c => Cert.KernelIdeal.Gen.V12 m ρ c Cert.KernelIdeal.main_v47, Cert.KernelIdeal.RunOut.run_out m ρ, ?_⟩
  refine (θ_run Cert.ReferenceIdeal.defs _ _).mono (fun _ h c => ⟨(h c).1.trans ?_, (h c).2⟩)
    (Cert.ReferenceIdeal.Value.run (F := Ideal) m' ρ')
  obtain ⟨hX, hW⟩ := Cert.Pre_finite_inputs.Finite.real_of_pre _ _ _ _ _ _ _ _ _ (hpre c)
  obtain ⟨h0, h1, h2, h3, h4, h5, h6, h7, h8⟩ := hagree c
  rw [Cert.ReferenceIdeal.Read.val_main_v72_eq, h0, h1, h2, h3, h4, h5, h6, h7, h8]
  exact (Cert.Bridge.ref_eq_kernel _ _ _ _ _ _ _ _ _ hX hW).trans (Cert.KernelIdeal.Stages.kernel_out m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
